-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x16 : Shape := ⟨2, ![800000, 16]⟩
abbrev S800000x2 : Shape := ⟨2, ![800000, 2]⟩
abbrev S64x64 : Shape := ⟨2, ![64, 64]⟩
abbrev S64 : Shape := ⟨1, ![64]⟩
abbrev S16x1 : Shape := ⟨2, ![16, 1]⟩
abbrev S1 : Shape := ⟨1, ![1]⟩
abbrev S64x8 : Shape := ⟨2, ![64, 8]⟩
abbrev S8 : Shape := ⟨1, ![8]⟩
abbrev S8x8 : Shape := ⟨2, ![8, 8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_

variable [Facts]

def fn_part4 {F : FTy → Type} [FloatOps F] (main_arg15 : FVec F S8x8 .f32) (main_arg16 : FVec F S8 .f32) (main_v63 : IVec S_ 1) (main_v67 : IVec S_ 1) : IVec S_ 1 :=
  let main_v68 : IVec S_ 1 := andi main_v63 main_v67
  let main_v69 : FVec F S8x8 .f32 := Host.absf main_arg15
  let main_cst_26 : FVec F S_ .f32 := constant S_ .f32 0x7F800000#32
  let main_v70 : FVec F S8x8 .f32 := broadcastInDim S8x8 ![] bcast_S_S8x8 main_cst_26
  let main_v71 : IVec S8x8 1 := cmpf .olt main_v69 main_v70
  let main_c_27 : IVec S_ 1 := constantI S_ 1 1#1
  let main_v72 : IVec S_ 1 := (fun x v => Host.reduce IntOp.andi x v reducesTo_S8x8_S_d0_1 h_S_) main_v71 main_c_27
  let main_v73 : IVec S_ 1 := andi main_v68 main_v72
  let main_v74 : FVec F S8 .f32 := Host.absf main_arg16
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  main_v78

def fn_part3 {F : FTy → Type} [FloatOps F] (main_arg12 : FVec F S1 .f32) (main_arg13 : FVec F S64x8 .f32) (main_arg14 : FVec F S8 .f32) (main_arg15 : FVec F S8x8 .f32) (main_arg16 : FVec F S8 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S64x8 .f32 := Host.absf main_arg13
  let main_cst_22 : FVec F S_ .f32 := constant S_ .f32 0x7F800000#32
  let main_v60 : FVec F S64x8 .f32 := broadcastInDim S64x8 ![] bcast_S_S64x8 main_cst_22
  let main_v61 : IVec S64x8 1 := cmpf .olt main_v59 main_v60
  let main_c_23 : IVec S_ 1 := constantI S_ 1 1#1
  let main_v62 : IVec S_ 1 := (fun x v => Host.reduce IntOp.andi x v reducesTo_S64x8_S_d0_1 h_S_) main_v61 main_c_23
  let main_v63 : IVec S_ 1 := andi main_v58 main_v62
  let main_v64 : FVec F S8 .f32 := Host.absf main_arg14
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_arg15 main_arg16 main_v63 main_v67

def fn_part2 {F : FTy → Type} [FloatOps F] (main_arg8 : FVec F S64 .f32) (main_arg9 : FVec F S64x64 .f32) (main_arg10 : FVec F S64 .f32) (main_arg11 : FVec F S16x1 .f32) (main_arg12 : FVec F S1 .f32) (main_arg13 : FVec F S64x8 .f32) (main_arg14 : FVec F S8 .f32) (main_arg15 : FVec F S8x8 .f32) (main_arg16 : FVec F S8 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S16x1 .f32 := Host.absf main_arg11
  let main_cst_18 : FVec F S_ .f32 := constant S_ .f32 0x7F800000#32
  let main_v50 : FVec F S16x1 .f32 := broadcastInDim S16x1 ![] bcast_S_S16x1 main_cst_18
  fn_part3 (F := F) main_arg12 main_arg13 main_arg14 main_arg15 main_arg16 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S16x1 .f32) (main_arg12 : FVec F S1 .f32) (main_arg13 : FVec F S64x8 .f32) (main_arg14 : FVec F S8 .f32) (main_arg15 : FVec F S8x8 .f32) (main_arg16 : FVec F S8 .f32) (main_v13 : IVec S_ 1) (main_v16 : IVec S800000x16 1) : IVec S_ 1 :=
  let main_c_5 : IVec S_ 1 := constantI S_ 1 1#1
  let main_v17 : IVec S_ 1 := (fun x v => Host.reduce IntOp.andi x v reducesTo_S800000x16_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x64 .f32) (main_arg1 : FVec F S50000x64 .f32) (main_arg2 : FVec F S50000x64 .f32) (main_arg3 : FVec F S800000x16 .f32) (main_arg4 : IVec S800000x2 32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S16x1 .f32) (main_arg12 : FVec F S1 .f32) (main_arg13 : FVec F S64x8 .f32) (main_arg14 : FVec F S8 .f32) (main_arg15 : FVec F S8x8 .f32) (main_arg16 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S800000x16 .f32 := Host.absf main_arg3
  let main_cst_4 : FVec F S_ .f32 := constant S_ .f32 0x7F800000#32
  let main_v15 : FVec F S800000x16 .f32 := broadcastInDim S800000x16 ![] bcast_S_S800000x16 main_cst_4
  let main_v16 : IVec S800000x16 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S800000x16 : Shape := ⟨2, ![800000, 16]⟩
abbrev S800000x2 : Shape := ⟨2, ![800000, 2]⟩
abbrev S64x64 : Shape := ⟨2, ![64, 64]⟩
abbrev S64 : Shape := ⟨1, ![64]⟩
abbrev S16x1 : Shape := ⟨2, ![16, 1]⟩
abbrev S1 : Shape := ⟨1, ![1]⟩
abbrev S64x8 : Shape := ⟨2, ![64, 8]⟩
abbrev S8 : Shape := ⟨1, ![8]⟩
abbrev S8x8 : Shape := ⟨2, ![8, 8]⟩
abbrev S1x64 : Shape := ⟨2, ![1, 64]⟩
abbrev S2000x64 : Shape := ⟨2, ![2000, 64]⟩
abbrev S800000x1 : Shape := ⟨2, ![800000, 1]⟩
abbrev S800000 : Shape := ⟨1, ![800000]⟩
abbrev S_ : Shape := ⟨0, ![]⟩
abbrev S800000x64 : Shape := ⟨2, ![800000, 64]⟩
abbrev S1x16 : Shape := ⟨2, ![1, 16]⟩
abbrev S1x1 : Shape := ⟨2, ![1, 1]⟩
abbrev S1x8 : Shape := ⟨2, ![1, 8]⟩
abbrev S8000x64 : Shape := ⟨2, ![8000, 64]⟩
abbrev S8000x16 : Shape := ⟨2, ![8000, 16]⟩
abbrev S8000 : Shape := ⟨1, ![8000]⟩
abbrev S8000x1 : Shape := ⟨2, ![8000, 1]⟩
abbrev S8000x8 : Shape := ⟨2, ![8000, 8]⟩

abbrev nBuf : Space → Nat
  | .hbm => 63
  | .vmem => 34
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S800000x16, .f32⟩
  | .hbm, ⟨4, _⟩ => ⟨S800000x2, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S16x1, .f32⟩
  | .hbm, ⟨12, _⟩ => ⟨S1, .f32⟩
  | .hbm, ⟨13, _⟩ => ⟨S64x8, .f32⟩
  | .hbm, ⟨14, _⟩ => ⟨S8, .f32⟩
  | .hbm, ⟨15, _⟩ => ⟨S8x8, .f32⟩
  | .hbm, ⟨16, _⟩ => ⟨S8, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S50000x64, .bf16⟩
  | .hbm, ⟨21, _⟩ => ⟨S50000x64, .bf16⟩
  | .hbm, ⟨22, _⟩ => ⟨S50000x64, .f32⟩
  | .hbm, ⟨23, _⟩ => ⟨S800000x1, .i32⟩
  | .hbm, ⟨24, _⟩ => ⟨S800000, .i32⟩
  | .hbm, ⟨25, _⟩ => ⟨S800000x1, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S1x16, .f32⟩
  | .hbm, ⟨55, _⟩ => ⟨S1x1, .f32⟩
  | .hbm, ⟨56, _⟩ => ⟨S1x8, .f32⟩
  | .hbm, ⟨57, _⟩ => ⟨S1x8, .f32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S2000x64, .bf16⟩
  | .local _ .vmem, ⟨13, _⟩ => ⟨S2000x64, .bf16⟩
  | .local _ .vmem, ⟨14, _⟩ => ⟨S2000x64, .bf16⟩
  | .local _ .vmem, ⟨15, _⟩ => ⟨S2000x64, .bf16⟩
  | .local _ .vmem, ⟨16, _⟩ => ⟨S2000x64, .f32⟩
  | .local _ .vmem, ⟨17, _⟩ => ⟨S2000x64, .f32⟩
  | .local _ .vmem, ⟨18, _⟩ => ⟨S8000x64, .bf16⟩
  | .local _ .vmem, ⟨19, _⟩ => ⟨S8000x64, .bf16⟩
  | .local _ .vmem, ⟨20, _⟩ => ⟨S8000x64, .bf16⟩
  | .local _ .vmem, ⟨21, _⟩ => ⟨S8000x64, .bf16⟩
  | .local _ .vmem, ⟨22, _⟩ => ⟨S8000x64, .f32⟩
  | .local _ .vmem, ⟨23, _⟩ => ⟨S8000x64, .f32⟩
  | .local _ .vmem, ⟨24, _⟩ => ⟨S8000x16, .f32⟩
  | .local _ .vmem, ⟨25, _⟩ => ⟨S8000x16, .f32⟩
  | .local _ .vmem, ⟨26, _⟩ => ⟨S1x16, .f32⟩
  | .local _ .vmem, ⟨27, _⟩ => ⟨S1x1, .f32⟩
  | .local _ .vmem, ⟨28, _⟩ => ⟨S64x8, .f32⟩
  | .local _ .vmem, ⟨29, _⟩ => ⟨S1x8, .f32⟩
  | .local _ .vmem, ⟨30, _⟩ => ⟨S8x8, .f32⟩
  | .local _ .vmem, ⟨31, _⟩ => ⟨S1x8, .f32⟩
  | .local _ .vmem, ⟨32, _⟩ => ⟨S8000x64, .f32⟩
  | .local _ .vmem, ⟨33, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3_0 : Ref sig .tc := ⟨.hbm, 20, rfl⟩
abbrev main_v3_1 : Ref sig .tc := ⟨.hbm, 21, rfl⟩
abbrev main_v3_2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg10_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S8000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  packedbf16_S2000x64_S2000x64_0_0 : (Rect.unit (s := S2000x64) ![0, 0] S2000x64.size inb_S2000x64_S2000x64_0_0).PackedRows (EltTy.packing .bf16)
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  shapeCasts_S16x1_S1x16 : S16x1.ShapeCasts S1x16
  shapeCasts_S1_S1x1 : S1.ShapeCasts S1x1
  shapeCasts_S8_S1x8 : S8.ShapeCasts S1x8
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x16_S8000x16_0_0 : ∀ a, (![0, 0] : Fin 2 → Nat) a + S8000x16.size a ≤ S8000x16.size a
  h_S8000x16 : 0 < S8000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  reduces_S8000x16_S8000 : S8000x16.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  broadcasts_S8000x1_S8000x64 : S8000x1.Broadcasts S8000x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8000x8 : S1x8.Broadcasts S8000x8
  inb_S8x8_S8x8_0_0 : ∀ a, (![0, 0] : Fin 2 → Nat) a + S8x8.size a ≤ S8x8.size a
  h_S8x8 : 0 < S8x8.numel
  reduces_S8000x8_S8000 : S8000x8.Reduces [1] S8000
  broadcasts_S8000x1_S8000x8 : S8000x1.Broadcasts S8000x8
  concatenates_S8000x8_S8000x8_S8000x8_S8000x8_S8000x8_S8000x8_S8000x8_S8000x8_S8000x64_d1 : Shape.Concatenates [S8000x8, S8000x8, S8000x8, S8000x8, S8000x8, S8000x8, S8000x8, S8000x8] S8000x64 1
  bcast_S_S50000x64 : S_.BroadcastsInDim S50000x64 (![] : Fin 0 → Fin S50000x64.rank)
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  dot_S8000x64_S64x8_S8000x8_1_0_0_1_n_n_wf : DotDims.WF S8000x64 S64x8 S8000x8 [1] [0] [0] [1] [] []
  dot_S8000x8_S8x8_S8000x8_1_0_0_1_n_n_wf : DotDims.WF S8000x8 S8x8 S8000x8 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S50000x64.size a
  hwx0_9 : ∀ i : grid0.Coords, EltTy.bits .bf16 = 32 ∨ (Rect.block (s := S50000x64) S2000x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S50000x64.size a
  hwx0_10 : ∀ i : grid0.Coords, EltTy.bits .bf16 = 32 ∨ (Rect.block (s := S50000x64) S2000x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x64.size a ≤ S50000x64.size a
  hwx0_11 : ∀ i : grid0.Coords, EltTy.bits .f32 = 32 ∨ (Rect.block (s := S50000x64) S2000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .bf16 = 32 ∨ (Rect.block (s := S800000x64) S8000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .bf16 = 32 ∨ (Rect.block (s := S800000x64) S8000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S800000x64.size a
  hwx1_2 : ∀ i : grid1.Coords, EltTy.bits .f32 = 32 ∨ (Rect.block (s := S800000x64) S8000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x16.size a ≤ S800000x16.size a
  hwx1_3 : ∀ i : grid1.Coords, EltTy.bits .f32 = 32 ∨ (Rect.block (s := S800000x16) S8000x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x8.size a ≤ S64x8.size a
  hwx1_6 : ∀ i : grid1.Coords, EltTy.bits .f32 = 32 ∨ (Rect.block (s := S64x8) S64x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8.size a ≤ S1x8.size a
  hwx1_7 : ∀ i : grid1.Coords, EltTy.bits .f32 = 32 ∨ (Rect.block (s := S1x8) S1x8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8x8.size a ≤ S8x8.size a
  hwx1_8 : ∀ i : grid1.Coords, EltTy.bits .f32 = 32 ∨ (Rect.block (s := S8x8) S8x8.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x8.size a ≤ S1x8.size a
  hwx1_9 : ∀ i : grid1.Coords, EltTy.bits .f32 = 32 ∨ (Rect.block (s := S1x8) S1x8.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8000x64.size a ≤ S800000x64.size a
  hwx1_10 : ∀ i : grid1.Coords, EltTy.bits .f32 = 32 ∨ (Rect.block (s := S800000x64) S8000x64.size (cc1_transform_10 i) (hinb1_10 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x8_S8000x8_1_0_0_1_n_n : DotDims S8000x64 S64x8 S8000x8 where
  lhsContracting := [1]
  rhsContracting := [0]
  lhsNonContracting := [0]
  rhsNonContracting := [1]
  lhsBatch := []
  rhsBatch := []
  wf := dot_S8000x64_S64x8_S8000x8_1_0_0_1_n_n_wf
def dot_S8000x8_S8x8_S8000x8_1_0_0_1_n_n : DotDims S8000x8 S8x8 S8000x8 where
  lhsContracting := [1]
  rhsContracting := [0]
  lhsNonContracting := [0]
  rhsNonContracting := [1]
  lhsBatch := []
  rhsBatch := []
  wf := dot_S8000x8_S8x8_S8000x8_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S2000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S2000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_2) S2000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v14) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S8000x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S64x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S8x8.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S1x8.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v33) S8000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x16 : Shape := ⟨2, ![800000, 16]⟩
abbrev S800000x2 : Shape := ⟨2, ![800000, 2]⟩
abbrev S64x64 : Shape := ⟨2, ![64, 64]⟩
abbrev S64 : Shape := ⟨1, ![64]⟩
abbrev S16x1 : Shape := ⟨2, ![16, 1]⟩
abbrev S1 : Shape := ⟨1, ![1]⟩
abbrev S64x8 : Shape := ⟨2, ![64, 8]⟩
abbrev S8 : Shape := ⟨1, ![8]⟩
abbrev S8x8 : Shape := ⟨2, ![8, 8]⟩
abbrev S800000x1 : Shape := ⟨2, ![800000, 1]⟩
abbrev S800000 : Shape := ⟨1, ![800000]⟩
abbrev S1x64 : Shape := ⟨2, ![1, 64]⟩
abbrev S_ : Shape := ⟨0, ![]⟩
abbrev S800000x64 : Shape := ⟨2, ![800000, 64]⟩
abbrev S1x1 : Shape := ⟨2, ![1, 1]⟩
abbrev S800000x8 : Shape := ⟨2, ![800000, 8]⟩
abbrev S1x8 : Shape := ⟨2, ![1, 8]⟩
abbrev S800000x8x8 : Shape := ⟨3, ![800000, 8, 8]⟩
abbrev S800000x1x8 : Shape := ⟨3, ![800000, 1, 8]⟩

abbrev nBuf : Space → Nat
  | .hbm => 106
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S800000x16, .f32⟩
  | .hbm, ⟨4, _⟩ => ⟨S800000x2, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S16x1, .f32⟩
  | .hbm, ⟨12, _⟩ => ⟨S1, .f32⟩
  | .hbm, ⟨13, _⟩ => ⟨S64x8, .f32⟩
  | .hbm, ⟨14, _⟩ => ⟨S8, .f32⟩
  | .hbm, ⟨15, _⟩ => ⟨S8x8, .f32⟩
  | .hbm, ⟨16, _⟩ => ⟨S8, .f32⟩
  | .hbm, ⟨17, _⟩ => ⟨S800000x1, .i32⟩
  | .hbm, ⟨18, _⟩ => ⟨S800000, .i32⟩
  | .hbm, ⟨19, _⟩ => ⟨S800000x1, .i32⟩
  | .hbm, ⟨20, _⟩ => ⟨S800000, .i32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S800000x1, .f32⟩
  | .hbm, ⟨61, _⟩ => ⟨S1x1, .f32⟩
  | .hbm, ⟨62, _⟩ => ⟨S800000x1, .f32⟩
  | .hbm, ⟨63, _⟩ => ⟨S800000x1, .f32⟩
  | .hbm, ⟨64, _⟩ => ⟨S800000x64, .f32⟩
  | .hbm, ⟨65, _⟩ => ⟨S800000x64, .f32⟩
  | .hbm, ⟨66, _⟩ => ⟨S800000x64, .f32⟩
  | .hbm, ⟨67, _⟩ => ⟨S_, .f32⟩
  | .hbm, ⟨68, _⟩ => ⟨S800000x64, .f32⟩
  | .hbm, ⟨69, _⟩ => ⟨S800000x64, .f32⟩
  | .hbm, ⟨70, _⟩ => ⟨S800000x8, .f32⟩
  | .hbm, ⟨71, _⟩ => ⟨S1x8, .f32⟩
  | .hbm, ⟨72, _⟩ => ⟨S800000x8, .f32⟩
  | .hbm, ⟨73, _⟩ => ⟨S800000x8, .f32⟩
  | .hbm, ⟨74, _⟩ => ⟨S_, .f32⟩
  | .hbm, ⟨75, _⟩ => ⟨S800000x8, .f32⟩
  | .hbm, ⟨76, _⟩ => ⟨S800000x8, .f32⟩
  | .hbm, ⟨77, _⟩ => ⟨S800000x8, .f32⟩
  | .hbm, ⟨78, _⟩ => ⟨S1x8, .f32⟩
  | .hbm, ⟨79, _⟩ => ⟨S800000x8, .f32⟩
  | .hbm, ⟨80, _⟩ => ⟨S800000x8, .f32⟩
  | .hbm, ⟨81, _⟩ => ⟨S_, .f32⟩
  | .hbm, ⟨82, _⟩ => ⟨S800000, .f32⟩
  | .hbm, ⟨83, _⟩ => ⟨S_, .f32⟩
  | .hbm, ⟨84, _⟩ => ⟨S800000, .f32⟩
  | .hbm, ⟨85, _⟩ => ⟨S800000, .f32⟩
  | .hbm, ⟨86, _⟩ => ⟨S800000x1, .f32⟩
  | .hbm, ⟨87, _⟩ => ⟨S800000x8, .f32⟩
  | .hbm, ⟨88, _⟩ => ⟨S800000x8, .f32⟩
  | .hbm, ⟨89, _⟩ => ⟨S800000x8, .f32⟩
  | .hbm, ⟨90, _⟩ => ⟨S_, .f32⟩
  | .hbm, ⟨91, _⟩ => ⟨S800000, .f32⟩
  | .hbm, ⟨92, _⟩ => ⟨S800000x1, .f32⟩
  | .hbm, ⟨93, _⟩ => ⟨S800000x8, .f32⟩
  | .hbm, ⟨94, _⟩ => ⟨S800000x8, .f32⟩
  | .hbm, ⟨95, _⟩ => ⟨S800000x64, .f32⟩
  | .hbm, ⟨96, _⟩ => ⟨S800000x64, .f32⟩
  | .hbm, ⟨97, _⟩ => ⟨S800000x8x8, .f32⟩
  | .hbm, ⟨98, _⟩ => ⟨S800000x1x8, .f32⟩
  | .hbm, ⟨99, _⟩ => ⟨S800000x8x8, .f32⟩
  | .hbm, ⟨100, _⟩ => ⟨S800000x8x8, .f32⟩
  | .hbm, ⟨101, _⟩ => ⟨S800000x64, .f32⟩
  | .hbm, ⟨102, _⟩ => ⟨S_, .f32⟩
  | .hbm, ⟨103, _⟩ => ⟨S50000x64, .f32⟩
  | .hbm, ⟨104, _⟩ => ⟨S800000x1, .i32⟩
  | .hbm, ⟨105, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call0_cst : Ref sig .tc := ⟨.hbm, 67, rfl⟩
abbrev main_call0_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst : Ref sig .tc := ⟨.hbm, 81, rfl⟩
abbrev main_v54 : Ref sig .tc := ⟨.hbm, 82, rfl⟩
abbrev main_cst_5 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_7 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x64_0_1 : S800000x1.BroadcastsInDim S800000x64 (![0, 1] : Fin 2 → Fin S800000x64.rank)
  bcast_S_S800000x64 : S_.BroadcastsInDim S800000x64 (![] : Fin 0 → Fin S800000x64.rank)
  bcast_S8_S1x8_1 : S8.BroadcastsInDim S1x8 (![1] : Fin 1 → Fin S1x8.rank)
  bcast_S1x8_S800000x8_0_1 : S1x8.BroadcastsInDim S800000x8 (![0, 1] : Fin 2 → Fin S800000x8.rank)
  bcast_S_S800000x8 : S_.BroadcastsInDim S800000x8 (![] : Fin 0 → Fin S800000x8.rank)
  reducesTo_S800000x8_S800000_d1 : S800000x8.ReducesTo [1] S800000
  h_S_ : 0 < S_.numel
  bcast_S800000x1_S800000x8_0_1 : S800000x1.BroadcastsInDim S800000x8 (![0, 1] : Fin 2 → Fin S800000x8.rank)
  shapeCasts_S800000x64_S800000x8x8 : S800000x64.ShapeCasts S800000x8x8
  bcast_S800000x8_S800000x1x8_0_2 : S800000x8.BroadcastsInDim S800000x1x8 (![0, 2] : Fin 2 → Fin S800000x1x8.rank)
  bcast_S800000x1x8_S800000x8x8_0_1_2 : S800000x1x8.BroadcastsInDim S800000x8x8 (![0, 1, 2] : Fin 3 → Fin S800000x8x8.rank)
  shapeCasts_S800000x8x8_S800000x64 : S800000x8x8.ShapeCasts S800000x64
  bcast_S_S50000x64 : S_.BroadcastsInDim S50000x64 (![] : Fin 0 → Fin S50000x64.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x16_S16x1_S800000x1_1_0_0_1_n_n_wf : DotDims.WF S800000x16 S16x1 S800000x1 [1] [0] [0] [1] [] []
  dot_S800000x64_S64x8_S800000x8_1_0_0_1_n_n_wf : DotDims.WF S800000x64 S64x8 S800000x8 [1] [0] [0] [1] [] []
  dot_S800000x8_S8x8_S800000x8_1_0_0_1_n_n_wf : DotDims.WF S800000x8 S8x8 S800000x8 [1] [0] [0] [1] [] []
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x16_S16x1_S800000x1_1_0_0_1_n_n : DotDims S800000x16 S16x1 S800000x1 where
  lhsContracting := [1]
  rhsContracting := [0]
  lhsNonContracting := [0]
  rhsNonContracting := [1]
  lhsBatch := []
  rhsBatch := []
  wf := dot_S800000x16_S16x1_S800000x1_1_0_0_1_n_n_wf
def dot_S800000x64_S64x8_S800000x8_1_0_0_1_n_n : DotDims S800000x64 S64x8 S800000x8 where
  lhsContracting := [1]
  rhsContracting := [0]
  lhsNonContracting := [0]
  rhsNonContracting := [1]
  lhsBatch := []
  rhsBatch := []
  wf := dot_S800000x64_S64x8_S800000x8_1_0_0_1_n_n_wf
def dot_S800000x8_S8x8_S800000x8_1_0_0_1_n_n : DotDims S800000x8 S8x8 S800000x8 where
  lhsContracting := [1]
  rhsContracting := [0]
  lhsNonContracting := [0]
  rhsNonContracting := [1]
  lhsBatch := []
  rhsBatch := []
  wf := dot_S800000x8_S8x8_S800000x8_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.EdgeSpec.lean ====
/-
  The message one edge sends, as a function of the ROWS it reads — the specification both programs are compared
  with. For an edge with query row `q`, key row `k` and value row `v` (64 entries each), edge features `ed`
  (16 entries), and the layer's weights:

    β      = (Σ_j ed j · wp j) + bp                         the positional bias, one number per edge
    h0 i   = max (k i − q i + β) 0                          64 entries
    h1 j   = max ((Σ_i h0 i · w1 i j) + b1 j) 0             8 entries
    z j    = (Σ_l h1 l · w2 l j) + b2 j                     8 logits
    M      = max (−∞) (max_j z j)                           the largest logit
    a j    = exp (z j − M) / Σ_l exp (z l − M)              the softmax weights
    msg c  = (v c + β) · a (c mod 8)                        64 entries: the eight weights repeated along the row

  All over the extended reals, with the two float words that occur (zero and −∞) kept as words, so that nothing here
  depends on what they denote. The node-level projection that produces the rows is `proj`: a row of `x` times the
  weight matrix, plus the bias.
-/
import Idealize.ShloMosaic.PureOps.Ideal
import Idealize.ShloMosaic.PureOps.Ideal.Laws
import Idealize.ShloMosaic.Lib.ValueIdx

noncomputable section

namespace Cert.EdgeSpec

open Idealize.ShloMosaic Idealize.ShloMosaic.ValueIdx

/-- The float word of zero, at its ideal value. -/
abbrev zeroW : EReal := Ideal.ofBits .f32 0x00000000#32
/-- The float word of −∞, at its ideal value. -/
abbrev ninfW : EReal := Ideal.ofBits .f32 0xFF800000#32

/-- The positional bias of an edge: its features against the weight column, plus the scalar bias. -/
def bias (ed wp : Fin 16 → EReal) (bp : EReal) : EReal := (∑ j : Fin 16, ed j * wp j) + bp

/-- The first hidden row: key minus query plus the positional bias, clipped below at zero. -/
def hid0 (q k : Fin 64 → EReal) (β : EReal) (i : Fin 64) : EReal := max (k i - q i + β) zeroW

/-- The second hidden row: the first one through the 64×8 layer, clipped below at zero. -/
def hid1 (h0 : Fin 64 → EReal) (w1 : Fin 64 → Fin 8 → EReal) (b1 : Fin 8 → EReal) (j : Fin 8) : EReal :=
  max ((∑ i : Fin 64, h0 i * w1 i j) + b1 j) zeroW

/-- The eight logits: the second hidden row through the 8×8 layer. -/
def logit (h1 : Fin 8 → EReal) (w2 : Fin 8 → Fin 8 → EReal) (b2 : Fin 8 → EReal) (j : Fin 8) : EReal :=
  (∑ l : Fin 8, h1 l * w2 l j) + b2 j

/-- The largest of eight logits (folded from −∞, and once more against −∞, as both programs take it). -/
def top (z : Fin 8 → EReal) : EReal := max ninfW ((Finset.univ : Finset (Fin 8)).fold max ninfW z)

/-- The exponential of a logit's distance below the largest one. -/
def ex (z : Fin 8 → EReal) (j : Fin 8) : EReal := Ideal.exp (z j - top z)

/-- The softmax weight of logit `j`. -/
def wgt (z : Fin 8 → EReal) (j : Fin 8) : EReal := Ideal.div (ex z j) (∑ l : Fin 8, ex z l)

/-- Column `c` of a 64-wide row takes softmax weight `c mod 8`. -/
abbrev lane (c : Fin 64) : Fin 8 := ⟨c.val % 8, Nat.mod_lt _ (by decide)⟩

/-- The edge's message at column `c`. -/
def rowMsg (q k v : Fin 64 → EReal) (ed wp : Fin 16 → EReal) (bp : EReal) (w1 : Fin 64 → Fin 8 → EReal) (b1 : Fin 8 → EReal)
    (w2 : Fin 8 → Fin 8 → EReal) (b2 : Fin 8 → EReal) (c : Fin 64) : EReal :=
  (v c + bias ed wp bp) * wgt (logit (hid1 (hid0 q k (bias ed wp bp)) w1 b1) w2 b2) (lane c)

/-- The node-level projection `x · W + b`, entry by entry, for `n` rows of 64 entries. -/
def proj {n : Nat} (x : (⟨2, ![n, 64]⟩ : Shape).Idx → EReal) (W : (⟨2, ![64, 64]⟩ : Shape).Idx → EReal)
    (b : (⟨1, ![64]⟩ : Shape).Idx → EReal) : (⟨2, ![n, 64]⟩ : Shape).Idx → EReal :=
  fun i => (∑ l : Fin 64, x (ix2 (i 0) l) * W (ix2 l (i 1))) + b (ix1 (i 1))

/-- The message array `[E, 64]` of all edges: row `e` is `rowMsg` of row `e` of the three gathered arrays and of the
    edge features, with the layer's weights read off their arrays (the 16×1 weight as a column, the 1-entry bias). -/
def msg {E : Nat} (xq xk xv : (⟨2, ![E, 64]⟩ : Shape).Idx → EReal) (ed : (⟨2, ![E, 16]⟩ : Shape).Idx → EReal)
    (wp : (⟨2, ![16, 1]⟩ : Shape).Idx → EReal) (bp : (⟨1, ![1]⟩ : Shape).Idx → EReal)
    (w1 : (⟨2, ![64, 8]⟩ : Shape).Idx → EReal) (b1 : (⟨1, ![8]⟩ : Shape).Idx → EReal)
    (w2 : (⟨2, ![8, 8]⟩ : Shape).Idx → EReal) (b2 : (⟨1, ![8]⟩ : Shape).Idx → EReal) :
    (⟨2, ![E, 64]⟩ : Shape).Idx → EReal :=
  fun i => rowMsg (fun l => xq (ix2 (i 0) l)) (fun l => xk (ix2 (i 0) l)) (fun l => xv (ix2 (i 0) l))
    (fun j => ed (ix2 (i 0) j)) (fun j => wp (ix2 j (0 : Fin 1))) (bp (ix1 (0 : Fin 1)))
    (fun l j => w1 (ix2 l j)) (fun j => b1 (ix1 j)) (fun l j => w2 (ix2 l j)) (fun j => b2 (ix1 j)) (i 1)

end Cert.EdgeSpec

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.EdgeBody.lean ====
/-
  The edge kernel's body, read at an entry. Its one store writes, at row `r` and column `c` of a block of 8000 edges,
  `rowMsg` of row `r` of the loaded blocks: the positional bias is a lane sum of the feature row against the weight
  row (plus the scalar bias), the two small layers are matrix products into a zero accumulator, the softmax is a lane
  maximum, an exponential, a lane sum and a quotient, and the eight weights are repeated along the row by an 8-fold
  concatenation, which reads its one piece at the column modulo 8. Changes of float format are the identity here.
-/
import proofs.«132439_j53944789238361_2_alg».proof.Proof.Gen.KernelIdeal.Skeleton
import proofs.«132439_j53944789238361_2_alg».proof.Proof.EdgeSpec
import proofs.«132439_j53944789238361_2_alg».proof.Proof.LibPlainDot
import proofs.«132439_j53944789238361_2_alg».proof.Proof.LibColumn
import proofs.«132439_j53944789238361_2_alg».proof.Proof.LibLaneSum
import Idealize.ShloMosaic.Lib.ValueIdx
import Idealize.ShloMosaic.Lib.ValueLayout
import Idealize.ShloMosaic.Lib.Pipeline.Value
import Idealize.ShloMosaic.PureOps.Ideal.Laws

noncomputable section

namespace Cert.EdgeBody

open Cert.KernelIdeal Cert.KernelIdeal.Gen Cert.EdgeSpec Cert.GraphConv Idealize.ShloMosaic Idealize.ShloMosaic.ValueIdx

/-! ## Small index facts -/

/-- A one-entry block `[1, 1]` broadcast to a column `[a, 1]` reads its one entry everywhere. -/
theorem broadcastTo_11_a1_apply {α : Type} {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The sum of row `r` of an 8000×16 block. -/
theorem rowSum16 (x : FVec Ideal S8000x16 .f32) (r : Fin 8000) :
    multiReduction .add [1] S8000 x 0x00000000#32 reduces_S8000x16_S8000 (.inl rfl) rfl (ix1 r) = ∑ j : Fin 16, x (ix2 r j) :=
  LaneSum.sum_last2 x _ _ _ _ r

/-- The sum of row `r` of an 8000×8 block. -/
theorem rowSum8 (x : FVec Ideal S8000x8 .f32) (r : Fin 8000) :
    multiReduction .add [1] S8000 x 0x00000000#32 reduces_S8000x8_S8000 (.inl rfl) rfl (ix1 r) = ∑ j : Fin 8, x (ix2 r j) :=
  LaneSum.sum_last2 x _ _ _ _ r

/-- The largest entry of row `r` of an 8000×8 block, folded from −∞. -/
theorem rowMax8 (x : FVec Ideal S8000x8 .f32) (r : Fin 8000) :
    multiReduction .maximumf [1] S8000 x 0xFF800000#32 reduces_S8000x8_S8000 (.inl rfl) rfl (ix1 r)
      = (Finset.univ : Finset (Fin 8)).fold max ninfW (fun j => x (ix2 r j)) := by
  refine (Ideal.multiReduction_maximumf_single x 0xFF800000#32 reduces_S8000x8_S8000 (.inl rfl) rfl (ix1 r)).trans ?_
  have hf : (x ∘ reduces_S8000x8_S8000.lift (ix1 r)) = fun j : Fin 8 => x (ix2 r j) :=
    funext fun k => congrArg x (funext fun ax => Fin.ext (by match ax with | ⟨0, _⟩ => rfl | ⟨1, _⟩ => rfl))
  exact congrArg (fun f => Finset.fold max ninfW f (Finset.univ : Finset (Fin 8))) hf

/-- Eight copies of an 8000×8 block side by side: column `c` reads the block at column `c mod 8`. -/
theorem tile8_apply (w : FVec Ideal S8000x8 .f32) (r : Fin 8000) (c : Fin 64) :
    concatenate S8000x64 1 [⟨S8000x8, w⟩, ⟨S8000x8, w⟩, ⟨S8000x8, w⟩, ⟨S8000x8, w⟩, ⟨S8000x8, w⟩, ⟨S8000x8, w⟩, ⟨S8000x8, w⟩, ⟨S8000x8, w⟩]
        concatenates_S8000x8_S8000x8_S8000x8_S8000x8_S8000x8_S8000x8_S8000x8_S8000x8_S8000x64_d1 (ix2 r c)
      = w (ix2 r (lane c)) := by
  refine concatenate_replicate_apply (t := S8000x64) (s₁ := S8000x8) 1 8 w
    concatenates_S8000x8_S8000x8_S8000x8_S8000x8_S8000x8_S8000x8_S8000x8_S8000x8_S8000x64_d1 rfl (ix2 r c) (ix2 r (lane c)) rfl ?_
  intro b hb
  match b with
  | ⟨0, _⟩ => rfl
  | ⟨1, _⟩ => exact absurd rfl hb

/-- A per-row value kept as a column and spread back over the row's eight entries reads the row's value. -/
theorem keepRow8_apply (x : FVec Ideal S8000 .f32) (r : Fin 8000) (l : Fin 8) :
    broadcastTo S8000x8 (shapeCast S8000x1 x shapeCasts_S8000_S8000x1) broadcasts_S8000x1_S8000x8 (ix2 r l) = x (ix1 r) :=
  (Column.broadcastTo_a1_ab_apply _ broadcasts_S8000x1_S8000x8 r l).trans
    (Column.shapeCast_a_a1_apply x shapeCasts_S8000_S8000x1 r (0 : Fin 1))

/-- The exponential of a block, entry by entry. -/
theorem exp_apply {s : Shape} (a : FVec Ideal s .f32) (i : s.Idx) : exp a i = Ideal.exp (a i) := rfl

/-- The softmax of row `r` of an 8000×8 block `Z`, as the body takes it: the row's largest entry (a lane maximum from −∞,
    once more against −∞) kept as a column and spread back, subtracted; the exponential; the row's sum of those, kept
    and spread back the same way; the quotient. -/
theorem softmax_apply (Z : FVec Ideal S8000x8 .f32) (r : Fin 8000) (j : Fin 8) :
    divf
      (exp (subf Z (broadcastTo S8000x8 (shapeCast S8000x1
        (maximumf (broadcast S8000 (Scalar.ofBits (F := Ideal) .f32 0xFF800000#32))
          (multiReduction .maximumf [1] S8000 Z 0xFF800000#32 reduces_S8000x8_S8000 (.inl rfl) rfl))
        shapeCasts_S8000_S8000x1) broadcasts_S8000x1_S8000x8)))
      (broadcastTo S8000x8 (shapeCast S8000x1
        (multiReduction .add [1] S8000
          (exp (subf Z (broadcastTo S8000x8 (shapeCast S8000x1
            (maximumf (broadcast S8000 (Scalar.ofBits (F := Ideal) .f32 0xFF800000#32))
              (multiReduction .maximumf [1] S8000 Z 0xFF800000#32 reduces_S8000x8_S8000 (.inl rfl) rfl))
            shapeCasts_S8000_S8000x1) broadcasts_S8000x1_S8000x8)))
          0x00000000#32 reduces_S8000x8_S8000 (.inl rfl) rfl)
        shapeCasts_S8000_S8000x1) broadcasts_S8000x1_S8000x8)
      (ix2 r j)
    = wgt (fun l => Z (ix2 r l)) j := by
  -- the row's largest entry, spread back over the row
  have hB : ∀ l : Fin 8,
      broadcastTo S8000x8 (shapeCast S8000x1
        (maximumf (broadcast S8000 (Scalar.ofBits (F := Ideal) .f32 0xFF800000#32))
          (multiReduction .maximumf [1] S8000 Z 0xFF800000#32 reduces_S8000x8_S8000 (.inl rfl) rfl))
        shapeCasts_S8000_S8000x1) broadcasts_S8000x1_S8000x8 (ix2 r l) = top (fun l => Z (ix2 r l)) := by
    intro l
    rw [keepRow8_apply, maximumf_apply, rowMax8]
    rfl
  generalize broadcastTo S8000x8 (shapeCast S8000x1
        (maximumf (broadcast S8000 (Scalar.ofBits (F := Ideal) .f32 0xFF800000#32))
          (multiReduction .maximumf [1] S8000 Z 0xFF800000#32 reduces_S8000x8_S8000 (.inl rfl) rfl))
        shapeCasts_S8000_S8000x1) broadcasts_S8000x1_S8000x8 = B at hB ⊢
  -- the exponentials of the row
  have hE : ∀ l : Fin 8, exp (subf Z B) (ix2 r l) = ex (fun l => Z (ix2 r l)) l := by
    intro l
    show Ideal.exp (Z (ix2 r l) - B (ix2 r l)) = Ideal.exp (Z (ix2 r l) - top fun l => Z (ix2 r l))
    rw [hB]
  generalize exp (subf Z B) = E at hE ⊢
  unfold wgt
  rw [divf_apply, hE, keepRow8_apply, rowSum8]
  simp only [hE]

/-! ## The payloads at an entry -/

/-- The positional bias of row `r`, as the body computes it. -/
theorem pay3_apply (v8 : Vec Ideal S8000x16 .f32) (v9 : Vec Ideal S1x16 .f32) (v15 : Vec Ideal S1x1 .f32) (r : Fin 8000) (u : Fin 1) :
    k1_pay3 (F := Ideal) v8 v9 v15 (ix2 r u)
      = bias (fun j => v8 (ix2 r j)) (fun j => v9 (ix2 (0 : Fin 1) j)) (v15 (ix2 (0 : Fin 1) (0 : Fin 1))) := by
  unfold k1_pay3 bias
  simp only [addf_apply]
  rw [Column.shapeCast_a_a1_apply, rowSum16, broadcastTo_11_a1_apply, shapeCast_self]
  simp only [mulf_apply, broadcastTo_1b_ab_apply, shapeCast_self]

/-- The second hidden row of row `r`, as the body computes it. -/
theorem pay4_apply (v0 v3 : Vec Ideal S8000x64 .bf16) (v8 : Vec Ideal S8000x16 .f32) (v9 : Vec Ideal S1x16 .f32)
    (v15 : Vec Ideal S1x1 .f32) (v25 : Vec Ideal S64x8 .f32) (v28 : Vec Ideal S1x8 .f32) (r : Fin 8000) (j : Fin 8) :
    k1_pay4 (F := Ideal) v0 v3 v8 v9 v15 v25 v28 (ix2 r j)
      = hid1 (hid0 (fun i => v0 (ix2 r i)) (fun i => v3 (ix2 r i))
            (bias (fun l => v8 (ix2 r l)) (fun l => v9 (ix2 (0 : Fin 1) l)) (v15 (ix2 (0 : Fin 1) (0 : Fin 1)))))
          (fun i l => v25 (ix2 i l)) (fun l => v28 (ix2 (0 : Fin 1) l)) j := by
  unfold k1_pay4 hid1 hid0
  simp only [truncf_apply, maximumf_apply, addf_apply, broadcast_apply]
  refine congrArg₂ max (congrArg₂ (· + ·) ?_ ?_) rfl
  · refine (PlainDot.matmul_zero_apply dot_S8000x64_S64x8_S8000x8_1_0_0_1_n_n rfl none _ _ r j).trans ?_
    refine Finset.sum_congr rfl fun i _ => ?_
    simp only [truncf_apply, maximumf_apply, addf_apply, subf_apply, extf_apply, broadcast_apply, shapeCast_self]
    rw [Column.broadcastTo_a1_ab_apply, pay3_apply]
    rfl
  · exact (broadcastTo_1b_ab_apply _ _ r j).trans (congrFun (shapeCast_self v28 _) _)

/-- The stored value at row `r`, column `c`, from the value block, the bias column, the second hidden rows and the
    8×8 layer. -/
theorem pay1_apply (v7 : FVec Ideal S8000x64 .f32) (v18 : FVec Ideal S8000x1 .f32) (v34 : FVec Ideal S8000x8 .bf16)
    (v36 : FVec Ideal S8x8 .bf16) (v38 : Vec Ideal S1x8 .f32) (r : Fin 8000) (c : Fin 64) :
    k1_pay1 (F := Ideal) v7 v18 v34 v36 v38 (ix2 r c)
      = (v7 (ix2 r c) + v18 (ix2 r (0 : Fin 1)))
          * wgt (logit (fun l => v34 (ix2 r l)) (fun l j => v36 (ix2 l j)) (fun j => v38 (ix2 (0 : Fin 1) j))) (lane c) := by
  -- the logits of row r
  have hz : ∀ j : Fin 8,
      addf (matmul dot_S8000x8_S8x8_S8000x8_1_0_0_1_n_n none v34 v36 (constant (F := Ideal) S8000x8 .f32 0x00000000#32))
          (broadcastTo S8000x8 (shapeCast S1x8 v38 shapeCasts_S1x8_S1x8) broadcasts_S1x8_S8000x8) (ix2 r j)
        = logit (fun l => v34 (ix2 r l)) (fun l j => v36 (ix2 l j)) (fun j => v38 (ix2 (0 : Fin 1) j)) j := by
    intro j
    unfold logit
    exact congrArg₂ (· + ·) (PlainDot.matmul_zero_apply dot_S8000x8_S8x8_S8000x8_1_0_0_1_n_n rfl none v34 v36 r j)
      ((broadcastTo_1b_ab_apply _ _ r j).trans (congrFun (shapeCast_self v38 _) _))
  unfold k1_pay1
  simp only [mulf_apply]
  rw [tile8_apply]
  refine congrArg₂ (· * ·) ?_ ?_
  · rw [addf_apply, Column.broadcastTo_a1_ab_apply]
  · refine (softmax_apply _ r (lane c)).trans ?_
    exact congrArg (fun z => wgt z (lane c)) (funext hz)

end Cert.EdgeBody

end
-- ==== Proof.EdgeValue.lean ====
/-
  The edge kernel's output array. The grid has 100 points; point `t` stages rows `8000·t … 8000·t + 7999` of the three
  gathered arrays and of the edge features, the whole of each weight array, and writes back the same rows of the
  message array. So row `e` of the message array, after the region, is `rowMsg` of row `e` of the arrays the region
  finds at its entry: what point `e / 8000` wrote at row `e mod 8000` of its block, and the hundred blocks tile the
  array.
-/
import proofs.«132439_j53944789238361_2_alg».proof.Proof.Gen.KernelIdeal.Frame
import proofs.«132439_j53944789238361_2_alg».proof.Proof.EdgeBody
import Idealize.ShloMosaic.Lib.Pipeline.Value

noncomputable section

namespace Cert.EdgeValue

open Cert.KernelIdeal Cert.KernelIdeal.Gen Cert.EdgeSpec Cert.EdgeBody
open Idealize.ShloMosaic Idealize.ShloMosaic.TcCoe Idealize.ShloMosaic.ValueIdx Idealize.SL.Sem
open Idealize.ShloMosaic.Pipeline (Dat)

/-! ## One grid point -/

/-- What a point stores at row `r`, column `q` of its block, from the ten loaded blocks: `rowMsg` of their rows `r`. -/
theorem point_eq (x0 x1 : Vec Ideal S8000x64 .bf16) (x2 : Vec Ideal S8000x64 .f32) (x3 : Vec Ideal S8000x16 .f32)
    (x4 : Vec Ideal S1x16 .f32) (x5 : Vec Ideal S1x1 .f32) (x6 : Vec Ideal S64x8 .f32) (x7 : Vec Ideal S1x8 .f32)
    (x8 : Vec Ideal S8x8 .f32) (x9 : Vec Ideal S1x8 .f32) (r : Fin 8000) (q : Fin 64) :
    k1_pay1 (F := Ideal) (k1_pay2 x2) (k1_pay3 x3 x4 x5) (k1_pay4 x0 x1 x3 x4 x5 x6 x7) (k1_pay5 x8) x9 (ix2 r q)
      = rowMsg (fun l => x0 (ix2 r l)) (fun l => x1 (ix2 r l)) (fun l => x2 (ix2 r l)) (fun j => x3 (ix2 r j))
          (fun j => x4 (ix2 (0 : Fin 1) j)) (x5 (ix2 (0 : Fin 1) (0 : Fin 1))) (fun l j => x6 (ix2 l j))
          (fun j => x7 (ix2 (0 : Fin 1) j)) (fun l j => x8 (ix2 l j)) (fun j => x9 (ix2 (0 : Fin 1) j)) q := by
  rw [pay1_apply, pay3_apply]
  unfold rowMsg
  have h2 : k1_pay2 (F := Ideal) x2 = x2 := shapeCast_self x2 _
  have h5 : k1_pay5 (F := Ideal) x8 = x8 := rfl
  rw [h2, h5]
  simp only [pay4_apply]

/-- `rowMsg` of equal rows and weights at equal columns. -/
theorem rowMsg_congr {q q' k k' v v' : Fin 64 → EReal} {ed ed' wp wp' : Fin 16 → EReal} {bp bp' : EReal}
    {w1 w1' : Fin 64 → Fin 8 → EReal} {b1 b1' : Fin 8 → EReal} {w2 w2' : Fin 8 → Fin 8 → EReal} {b2 b2' : Fin 8 → EReal}
    {c c' : Fin 64} (hq : q = q') (hk : k = k') (hv : v = v') (hed : ed = ed') (hwp : wp = wp') (hbp : bp = bp')
    (hw1 : w1 = w1') (hb1 : b1 = b1') (hw2 : w2 = w2') (hb2 : b2 = b2') (hc : c = c') :
    rowMsg q k v ed wp bp w1 b1 w2 b2 c = rowMsg q' k' v' ed' wp' bp' w1' b1' w2' b2' c' := by
  subst hq hk hv hed hwp hbp hw1 hb1 hw2 hb2 hc
  rfl

/-! ## The array after the region -/

variable (V : (c : Dev nD) → (b : Ref sig .tc) → Buf (Elt Ideal) ((c : Thread nD τ).loc b))

theorem hz2 : (![0, 0] : Fin 2 → Nat) = fun _ => 0 := funext fun a => by fin_cases a <;> rfl

/-- The message array as a function of the arrays the region finds at its entry: row by row, `rowMsg`. -/
def msgOf (c : Dev nD) : S800000x64.Idx → EReal := fun i =>
  rowMsg (fun l => V c main_v14 (ix2 (i 0) l)) (fun l => V c main_v21 (ix2 (i 0) l)) (fun l => V c main_v28 (ix2 (i 0) l))
    (fun j => V c main_arg3 (ix2 (i 0) j)) (fun j => V c main_v29 (ix2 (0 : Fin 1) j)) (V c main_v30 (ix2 (0 : Fin 1) (0 : Fin 1)))
    (fun l j => V c main_arg13 (ix2 l j)) (fun j => V c main_v31 (ix2 (0 : Fin 1) j)) (fun l j => V c main_arg15 (ix2 l j))
    (fun j => V c main_v32 (ix2 (0 : Fin 1) j)) (i 1)

/-- The printed index maps over the grid: the four row-blocked inputs and the output move together, block `t` at point
    `t`; the six weight windows stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- What point `t` writes back is block `t` of `msgOf`. -/
theorem flushed_eq (c : Dev nD) (t : Fin cfg1.N) :
    (dat1 V c).flushed 10 t = ((cfg1.win 10).blk t).view.read (Elt Ideal) (msgOf V c) := by
  show (cfg1.win 10).cut (grid1.coords t) ((dat1 V c).after 10 t) = _
  rw [after1_10]
  unfold out1_10
  rw [View.canon_unit_zero hz2]
  simp only [View.ld_unit_zero (S := S8000x64) hz2, View.ld_unit_zero (S := S8000x16) hz2, View.ld_unit_zero (S := S1x16) hz2,
    View.ld_unit_zero (S := S1x1) hz2, View.ld_unit_zero (S := S64x8) hz2, View.ld_unit_zero (S := S1x8) hz2,
    View.ld_unit_zero (S := S8x8) hz2]
  obtain ⟨a0, b0, a1, b1, a2, b2, a3, b3, a4, b4, a5, b5, a6, b6, a7, b7, a8, b8, a9, b9, a10, b10⟩ := idx_facts t
  refine funext fun (y : S8000x64.Idx) => ?_
  obtain ⟨r, q, rfl⟩ : ∃ (r : Fin 8000) (q : Fin 64), y = ix2 r q := ⟨y 0, y 1, eq_ix2 y⟩
  refine (point_eq (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) r q).trans ?_
  show _ = msgOf V c (((cfg1.win 10).blk t).view.emb (ix2 r q))
  unfold msgOf
  -- each block read is the array read at the point's rows
  have h0 : ∀ l : Fin 64, iblk1 V c 0 t (ix2 r l) = V c main_v14 (ix2 (((cfg1.win 10).blk t).view.emb (ix2 r q) 0) l) := by
    intro l
    show V c main_v14 (((cfg1.win 0).blk t).view.emb (ix2 r l)) = _
    refine congrArg (V c main_v14) (funext fun a => Fin.ext ?_)
    match a with
    | ⟨0, _⟩ => show win1_0.index t (0 : Fin 2) * 8000 + 1 * r.val = win1_10.index t (0 : Fin 2) * 8000 + 1 * r.val; omega
    | ⟨1, _⟩ => show win1_0.index t (1 : Fin 2) * 64 + 1 * l.val = l.val; omega
  have h1 : ∀ l : Fin 64, iblk1 V c 1 t (ix2 r l) = V c main_v21 (ix2 (((cfg1.win 10).blk t).view.emb (ix2 r q) 0) l) := by
    intro l
    show V c main_v21 (((cfg1.win 1).blk t).view.emb (ix2 r l)) = _
    refine congrArg (V c main_v21) (funext fun a => Fin.ext ?_)
    match a with
    | ⟨0, _⟩ => show win1_1.index t (0 : Fin 2) * 8000 + 1 * r.val = win1_10.index t (0 : Fin 2) * 8000 + 1 * r.val; omega
    | ⟨1, _⟩ => show win1_1.index t (1 : Fin 2) * 64 + 1 * l.val = l.val; omega
  have h2 : ∀ l : Fin 64, iblk1 V c 2 t (ix2 r l) = V c main_v28 (ix2 (((cfg1.win 10).blk t).view.emb (ix2 r q) 0) l) := by
    intro l
    show V c main_v28 (((cfg1.win 2).blk t).view.emb (ix2 r l)) = _
    refine congrArg (V c main_v28) (funext fun a => Fin.ext ?_)
    match a with
    | ⟨0, _⟩ => show win1_2.index t (0 : Fin 2) * 8000 + 1 * r.val = win1_10.index t (0 : Fin 2) * 8000 + 1 * r.val; omega
    | ⟨1, _⟩ => show win1_2.index t (1 : Fin 2) * 64 + 1 * l.val = l.val; omega
  have h3 : ∀ j : Fin 16, iblk1 V c 3 t (ix2 r j) = V c main_arg3 (ix2 (((cfg1.win 10).blk t).view.emb (ix2 r q) 0) j) := by
    intro j
    show V c main_arg3 (((cfg1.win 3).blk t).view.emb (ix2 r j)) = _
    refine congrArg (V c main_arg3) (funext fun a => Fin.ext ?_)
    match a with
    | ⟨0, _⟩ => show win1_3.index t (0 : Fin 2) * 8000 + 1 * r.val = win1_10.index t (0 : Fin 2) * 8000 + 1 * r.val; omega
    | ⟨1, _⟩ => show win1_3.index t (1 : Fin 2) * 16 + 1 * j.val = j.val; omega
  have h4 : ∀ j : Fin 16, iblk1 V c 4 t (ix2 (0 : Fin 1) j) = V c main_v29 (ix2 (0 : Fin 1) j) := by
    intro j
    show V c main_v29 (((cfg1.win 4).blk t).view.emb (ix2 (0 : Fin 1) j)) = _
    refine congrArg (V c main_v29) (funext fun a => Fin.ext ?_)
    match a with
    | ⟨0, _⟩ => show win1_4.index t (0 : Fin 2) * 1 + 1 * 0 = 0; omega
    | ⟨1, _⟩ => show win1_4.index t (1 : Fin 2) * 16 + 1 * j.val = j.val; omega
  have h5 : iblk1 V c 5 t (ix2 (0 : Fin 1) (0 : Fin 1)) = V c main_v30 (ix2 (0 : Fin 1) (0 : Fin 1)) := by
    show V c main_v30 (((cfg1.win 5).blk t).view.emb (ix2 (0 : Fin 1) (0 : Fin 1))) = _
    refine congrArg (V c main_v30) (funext fun a => Fin.ext ?_)
    match a with
    | ⟨0, _⟩ => show win1_5.index t (0 : Fin 2) * 1 + 1 * 0 = 0; omega
    | ⟨1, _⟩ => show win1_5.index t (1 : Fin 2) * 1 + 1 * 0 = 0; omega
  have h6 : ∀ (l : Fin 64) (j : Fin 8), iblk1 V c 6 t (ix2 l j) = V c main_arg13 (ix2 l j) := by
    intro l j
    show V c main_arg13 (((cfg1.win 6).blk t).view.emb (ix2 l j)) = _
    refine congrArg (V c main_arg13) (funext fun a => Fin.ext ?_)
    match a with
    | ⟨0, _⟩ => show win1_6.index t (0 : Fin 2) * 64 + 1 * l.val = l.val; omega
    | ⟨1, _⟩ => show win1_6.index t (1 : Fin 2) * 8 + 1 * j.val = j.val; omega
  have h7 : ∀ j : Fin 8, iblk1 V c 7 t (ix2 (0 : Fin 1) j) = V c main_v31 (ix2 (0 : Fin 1) j) := by
    intro j
    show V c main_v31 (((cfg1.win 7).blk t).view.emb (ix2 (0 : Fin 1) j)) = _
    refine congrArg (V c main_v31) (funext fun a => Fin.ext ?_)
    match a with
    | ⟨0, _⟩ => show win1_7.index t (0 : Fin 2) * 1 + 1 * 0 = 0; omega
    | ⟨1, _⟩ => show win1_7.index t (1 : Fin 2) * 8 + 1 * j.val = j.val; omega
  have h8 : ∀ (l : Fin 8) (j : Fin 8), iblk1 V c 8 t (ix2 l j) = V c main_arg15 (ix2 l j) := by
    intro l j
    show V c main_arg15 (((cfg1.win 8).blk t).view.emb (ix2 l j)) = _
    refine congrArg (V c main_arg15) (funext fun a => Fin.ext ?_)
    match a with
    | ⟨0, _⟩ => show win1_8.index t (0 : Fin 2) * 8 + 1 * l.val = l.val; omega
    | ⟨1, _⟩ => show win1_8.index t (1 : Fin 2) * 8 + 1 * j.val = j.val; omega
  have h9 : ∀ j : Fin 8, iblk1 V c 9 t (ix2 (0 : Fin 1) j) = V c main_v32 (ix2 (0 : Fin 1) j) := by
    intro j
    show V c main_v32 (((cfg1.win 9).blk t).view.emb (ix2 (0 : Fin 1) j)) = _
    refine congrArg (V c main_v32) (funext fun a => Fin.ext ?_)
    match a with
    | ⟨0, _⟩ => show win1_9.index t (0 : Fin 2) * 1 + 1 * 0 = 0; omega
    | ⟨1, _⟩ => show win1_9.index t (1 : Fin 2) * 8 + 1 * j.val = j.val; omega
  have hq : q = ((cfg1.win 10).blk t).view.emb (ix2 r q) 1 :=
    Fin.ext (by show q.val = win1_10.index t (1 : Fin 2) * 64 + 1 * q.val; omega)
  exact rowMsg_congr (funext h0) (funext h1) (funext h2) (funext h3) (funext h4) h5 (funext fun l => funext (h6 l))
    (funext h7) (funext fun l => funext (h8 l)) (funext h9) hq

/-- An index of the array is in point `t`'s block iff each coordinate is in the block's range on its axis. -/
theorem mem_blk (t : Fin cfg1.N) (i : S800000x64.Idx) :
    i ∈ ((cfg1.win 10).blk t).view.set ↔ ∀ a : Fin 2, win1_10.index t a * S8000x64.size a ≤ (i a).val
      ∧ (i a).val < win1_10.index t a * S8000x64.size a + S8000x64.size a := by
  show i ∈ ((View.whole main_v33).slice (win1_10.rect t)).set ↔ _
  rw [View.set_slice_whole, Rect.mem_set_unit]
  exact Iff.rfl

/-- Every row of the array is in the block of the point `row / 8000`. -/
theorem cover (i : S800000x64.Idx) : ∃ t : Fin cfg1.N, (cfg1.win 10).flush t = true ∧ i ∈ ((cfg1.win 10).blk t).view.set := by
  have hi0 : (i 0).val < 800000 := (i 0).isLt
  have hi1 : (i 1).val < 64 := (i 1).isLt
  have hN : grid1.N = 100 := N_1
  have ht : (i 0).val / 8000 < grid1.N := by omega
  obtain ⟨a0, b0, a1, b1, a2, b2, a3, b3, a4, b4, a5, b5, a6, b6, a7, b7, a8, b8, a9, b9, a10, b10⟩ := idx_facts ⟨(i 0).val / 8000, ht⟩
  refine ⟨⟨(i 0).val / 8000, ht⟩, flush1_10 _, ?_⟩
  rw [mem_blk]
  intro a
  match a with
  | ⟨0, _⟩ =>
    show win1_10.index ⟨(i 0).val / 8000, ht⟩ (0 : Fin 2) * 8000 ≤ (i 0).val
      ∧ (i 0).val < win1_10.index ⟨(i 0).val / 8000, ht⟩ (0 : Fin 2) * 8000 + 8000
    rw [a10]; show (i 0).val / 8000 * 8000 ≤ (i 0).val ∧ (i 0).val < (i 0).val / 8000 * 8000 + 8000; omega
  | ⟨1, _⟩ =>
    show win1_10.index ⟨(i 0).val / 8000, ht⟩ (1 : Fin 2) * 64 ≤ (i 1).val
      ∧ (i 1).val < win1_10.index ⟨(i 0).val / 8000, ht⟩ (1 : Fin 2) * 64 + 64
    rw [b10]; omega

/-- The message array after the region is `msgOf` of the region's entry contents. -/
theorem final (c : Dev nD) : (dat1 V c).arrAt 10 cfg1.N = msgOf V c :=
  (dat1 V c).arrAt_eq_of_cover 10 (msgOf V c) (fun t _ => flushed_eq V c t) (cover)

end Cert.EdgeValue

end
-- ==== Proof.ProjValue.lean ====
/-
  The projection kernel's three output arrays. The grid has 25 points; point `t` stages rows `2000·t … 2000·t + 1999` of
  the three node arrays, the whole of each weight matrix and bias row, and writes back the same rows of the three
  outputs. Each output block is the input block times the 64×64 weight (a product into a zero accumulator, so a plain
  sum over the 64 inner entries) plus the bias row; the 25 blocks tile the 50000 rows. So each output array, after
  the region, is `x · W + b` entry by entry, of the arrays the region finds at its entry. (Two of the outputs are
  stored in a narrower float format, which changes nothing here.)
-/
import proofs.«132439_j53944789238361_2_alg».proof.Proof.Gen.KernelIdeal.Frame
import proofs.«132439_j53944789238361_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.ProjValue

open Cert.KernelIdeal Cert.KernelIdeal.Gen
open Idealize.ShloMosaic Idealize.ShloMosaic.TcCoe Idealize.ShloMosaic.ValueIdx Idealize.SL.Sem
open Idealize.ShloMosaic.Pipeline (Dat)

/-- `x · W + b` with the bias given as a one-row array: entry `(n, q)` is row `n` of `x` against column `q` of `W`,
    plus `b` at `q`. -/
def rowProj (x : S50000x64.Idx → EReal) (w : S64x64.Idx → EReal) (b : S1x64.Idx → EReal) : S50000x64.Idx → EReal :=
  fun i => (∑ l : Fin 64, x (ix2 (i 0) l) * w (ix2 l (i 1))) + b (ix2 (0 : Fin 1) (i 1))

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the three row-blocked inputs and the three outputs move together, block `t`
    at point `t`; the six weight and bias windows stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-! ## Output window 9: `main_v3_0` -/

/-- The stored value at row `r`, column `q`: row `r` of the input block against column `q` of the weight, plus the bias. -/
theorem k0_pay1_apply (v0 : Vec Ideal S2000x64 .f32) (v6 : Vec Ideal S64x64 .f32) (v13 : Vec Ideal S1x64 .f32) (r : Fin 2000) (q : Fin 64) :
    k0_pay1 (F := Ideal) v0 v6 v13 (ix2 r q) = (∑ l : Fin 64, v0 (ix2 r l) * v6 (ix2 l q)) + v13 (ix2 (0 : Fin 1) q) := by
  unfold k0_pay1
  simp only [truncf_apply, addf_apply]
  refine congrArg₂ (· + ·) ?_ ?_
  · exact PlainDot.matmul_zero_apply dot_S2000x64_S64x64_S2000x64_1_0_0_1_n_n rfl none _ _ r q
  · exact (broadcastTo_1b_ab_apply _ _ r q).trans (congrFun (shapeCast_self v13 _) _)

/-- What point `t` writes back to window 9 is block `t` of the projection of the arrays the region finds. -/
theorem flushed9_eq (c : Dev nD) (t : Fin cfg0.N) :
    (dat0 V c).flushed 9 t
      = ((cfg0.win 9).blk t).view.read (Elt Ideal) (rowProj (V c main_arg0) (V c main_arg5) (V c main_v0)) := by
  show (cfg0.win 9).cut (grid0.coords t) ((dat0 V c).after 9 t) = _
  rw [after0_9]
  unfold out0_9
  rw [View.canon_unit_zero hz2]
  simp only [View.ld_unit_zero (S := S2000x64) hz2, View.ld_unit_zero (S := S64x64) hz2, View.ld_unit_zero (S := S1x64) hz2]
  obtain ⟨a0, b0, a1, b1, a2, b2, a3, b3, a4, b4, a5, b5, a6, b6, a7, b7, a8, b8, a9, b9, a10, b10, a11, b11⟩ := idx_facts t
  refine funext fun (y : S2000x64.Idx) => ?_
  obtain ⟨r, q, rfl⟩ : ∃ (r : Fin 2000) (q : Fin 64), y = ix2 r q := ⟨y 0, y 1, eq_ix2 y⟩
  refine (k0_pay1_apply (iblk0 V c 0 t) (iblk0 V c 3 t) (iblk0 V c 4 t) r q).trans ?_
  show _ = rowProj (V c main_arg0) (V c main_arg5) (V c main_v0) (((cfg0.win 9).blk t).view.emb (ix2 r q))
  unfold rowProj
  have hx : ∀ l : Fin 64, iblk0 V c 0 t (ix2 r l) = V c main_arg0 (ix2 (((cfg0.win 9).blk t).view.emb (ix2 r q) 0) l) := by
    intro l
    show V c main_arg0 (((cfg0.win 0).blk t).view.emb (ix2 r l)) = _
    refine congrArg (V c main_arg0) (funext fun a => Fin.ext ?_)
    match a with
    | ⟨0, _⟩ => show win0_0.index t (0 : Fin 2) * 2000 + 1 * r.val = win0_9.index t (0 : Fin 2) * 2000 + 1 * r.val; omega
    | ⟨1, _⟩ => show win0_0.index t (1 : Fin 2) * 64 + 1 * l.val = l.val; omega
  have hw : ∀ l : Fin 64, iblk0 V c 3 t (ix2 l q) = V c main_arg5 (ix2 l (((cfg0.win 9).blk t).view.emb (ix2 r q) 1)) := by
    intro l
    show V c main_arg5 (((cfg0.win 3).blk t).view.emb (ix2 l q)) = _
    refine congrArg (V c main_arg5) (funext fun a => Fin.ext ?_)
    match a with
    | ⟨0, _⟩ => show win0_3.index t (0 : Fin 2) * 64 + 1 * l.val = l.val; omega
    | ⟨1, _⟩ => show win0_3.index t (1 : Fin 2) * 64 + 1 * q.val = win0_9.index t (1 : Fin 2) * 64 + 1 * q.val; omega
  have hb : iblk0 V c 4 t (ix2 (0 : Fin 1) q) = V c main_v0 (ix2 (0 : Fin 1) (((cfg0.win 9).blk t).view.emb (ix2 r q) 1)) := by
    show V c main_v0 (((cfg0.win 4).blk t).view.emb (ix2 (0 : Fin 1) q)) = _
    refine congrArg (V c main_v0) (funext fun a => Fin.ext ?_)
    match a with
    | ⟨0, _⟩ => show win0_4.index t (0 : Fin 2) * 1 + 1 * 0 = 0; omega
    | ⟨1, _⟩ => show win0_4.index t (1 : Fin 2) * 64 + 1 * q.val = win0_9.index t (1 : Fin 2) * 64 + 1 * q.val; omega
  simp only [hx, hw, hb]

/-- An index of the array is in point `t`'s block iff each coordinate is in the block's range on its axis. -/
theorem mem_blk9 (t : Fin cfg0.N) (i : S50000x64.Idx) :
    i ∈ ((cfg0.win 9).blk t).view.set ↔ ∀ a : Fin 2, win0_9.index t a * S2000x64.size a ≤ (i a).val
      ∧ (i a).val < win0_9.index t a * S2000x64.size a + S2000x64.size a := by
  show i ∈ ((View.whole main_v3_0).slice (win0_9.rect t)).set ↔ _
  rw [View.set_slice_whole, Rect.mem_set_unit]
  exact Iff.rfl

/-- Every row of the array is in the block of the point `row / 2000`. -/
theorem cover9 (i : S50000x64.Idx) : ∃ t : Fin cfg0.N, (cfg0.win 9).flush t = true ∧ i ∈ ((cfg0.win 9).blk t).view.set := by
  have hi0 : (i 0).val < 50000 := (i 0).isLt
  have hi1 : (i 1).val < 64 := (i 1).isLt
  have hN : grid0.N = 25 := N_0
  have ht : (i 0).val / 2000 < grid0.N := by omega
  obtain ⟨a0, b0, a1, b1, a2, b2, a3, b3, a4, b4, a5, b5, a6, b6, a7, b7, a8, b8, a9, b9, a10, b10, a11, b11⟩ := idx_facts ⟨(i 0).val / 2000, ht⟩
  refine ⟨⟨(i 0).val / 2000, ht⟩, flush0_9 _, ?_⟩
  rw [mem_blk9]
  intro a
  match a with
  | ⟨0, _⟩ =>
    show win0_9.index ⟨(i 0).val / 2000, ht⟩ (0 : Fin 2) * 2000 ≤ (i 0).val
      ∧ (i 0).val < win0_9.index ⟨(i 0).val / 2000, ht⟩ (0 : Fin 2) * 2000 + 2000
    rw [a9]; show (i 0).val / 2000 * 2000 ≤ (i 0).val ∧ (i 0).val < (i 0).val / 2000 * 2000 + 2000; omega
  | ⟨1, _⟩ =>
    show win0_9.index ⟨(i 0).val / 2000, ht⟩ (1 : Fin 2) * 64 ≤ (i 1).val
      ∧ (i 1).val < win0_9.index ⟨(i 0).val / 2000, ht⟩ (1 : Fin 2) * 64 + 64
    rw [b9]; omega

/-- The array of window 9 after the region: the projection of the region's entry contents. -/
theorem final9 (c : Dev nD) : (dat0 V c).arrAt 9 cfg0.N = rowProj (V c main_arg0) (V c main_arg5) (V c main_v0) :=
  (dat0 V c).arrAt_eq_of_cover 9 (rowProj (V c main_arg0) (V c main_arg5) (V c main_v0)) (fun t _ => flushed9_eq V c t) (cover9)

/-! ## Output window 10: `main_v3_1` -/

/-- The stored value at row `r`, column `q`: row `r` of the input block against column `q` of the weight, plus the bias. -/
theorem k0_pay2_apply (v0 : Vec Ideal S2000x64 .f32) (v6 : Vec Ideal S64x64 .f32) (v13 : Vec Ideal S1x64 .f32) (r : Fin 2000) (q : Fin 64) :
    k0_pay2 (F := Ideal) v0 v6 v13 (ix2 r q) = (∑ l : Fin 64, v0 (ix2 r l) * v6 (ix2 l q)) + v13 (ix2 (0 : Fin 1) q) := by
  unfold k0_pay2
  simp only [truncf_apply, addf_apply]
  refine congrArg₂ (· + ·) ?_ ?_
  · exact PlainDot.matmul_zero_apply dot_S2000x64_S64x64_S2000x64_1_0_0_1_n_n rfl none _ _ r q
  · exact (broadcastTo_1b_ab_apply _ _ r q).trans (congrFun (shapeCast_self v13 _) _)

/-- What point `t` writes back to window 10 is block `t` of the projection of the arrays the region finds. -/
theorem flushed10_eq (c : Dev nD) (t : Fin cfg0.N) :
    (dat0 V c).flushed 10 t
      = ((cfg0.win 10).blk t).view.read (Elt Ideal) (rowProj (V c main_arg1) (V c main_arg7) (V c main_v1)) := by
  show (cfg0.win 10).cut (grid0.coords t) ((dat0 V c).after 10 t) = _
  rw [after0_10]
  unfold out0_10
  rw [View.canon_unit_zero hz2]
  simp only [View.ld_unit_zero (S := S2000x64) hz2, View.ld_unit_zero (S := S64x64) hz2, View.ld_unit_zero (S := S1x64) hz2]
  obtain ⟨a0, b0, a1, b1, a2, b2, a3, b3, a4, b4, a5, b5, a6, b6, a7, b7, a8, b8, a9, b9, a10, b10, a11, b11⟩ := idx_facts t
  refine funext fun (y : S2000x64.Idx) => ?_
  obtain ⟨r, q, rfl⟩ : ∃ (r : Fin 2000) (q : Fin 64), y = ix2 r q := ⟨y 0, y 1, eq_ix2 y⟩
  refine (k0_pay2_apply (iblk0 V c 1 t) (iblk0 V c 5 t) (iblk0 V c 6 t) r q).trans ?_
  show _ = rowProj (V c main_arg1) (V c main_arg7) (V c main_v1) (((cfg0.win 10).blk t).view.emb (ix2 r q))
  unfold rowProj
  have hx : ∀ l : Fin 64, iblk0 V c 1 t (ix2 r l) = V c main_arg1 (ix2 (((cfg0.win 10).blk t).view.emb (ix2 r q) 0) l) := by
    intro l
    show V c main_arg1 (((cfg0.win 1).blk t).view.emb (ix2 r l)) = _
    refine congrArg (V c main_arg1) (funext fun a => Fin.ext ?_)
    match a with
    | ⟨0, _⟩ => show win0_1.index t (0 : Fin 2) * 2000 + 1 * r.val = win0_10.index t (0 : Fin 2) * 2000 + 1 * r.val; omega
    | ⟨1, _⟩ => show win0_1.index t (1 : Fin 2) * 64 + 1 * l.val = l.val; omega
  have hw : ∀ l : Fin 64, iblk0 V c 5 t (ix2 l q) = V c main_arg7 (ix2 l (((cfg0.win 10).blk t).view.emb (ix2 r q) 1)) := by
    intro l
    show V c main_arg7 (((cfg0.win 5).blk t).view.emb (ix2 l q)) = _
    refine congrArg (V c main_arg7) (funext fun a => Fin.ext ?_)
    match a with
    | ⟨0, _⟩ => show win0_5.index t (0 : Fin 2) * 64 + 1 * l.val = l.val; omega
    | ⟨1, _⟩ => show win0_5.index t (1 : Fin 2) * 64 + 1 * q.val = win0_10.index t (1 : Fin 2) * 64 + 1 * q.val; omega
  have hb : iblk0 V c 6 t (ix2 (0 : Fin 1) q) = V c main_v1 (ix2 (0 : Fin 1) (((cfg0.win 10).blk t).view.emb (ix2 r q) 1)) := by
    show V c main_v1 (((cfg0.win 6).blk t).view.emb (ix2 (0 : Fin 1) q)) = _
    refine congrArg (V c main_v1) (funext fun a => Fin.ext ?_)
    match a with
    | ⟨0, _⟩ => show win0_6.index t (0 : Fin 2) * 1 + 1 * 0 = 0; omega
    | ⟨1, _⟩ => show win0_6.index t (1 : Fin 2) * 64 + 1 * q.val = win0_10.index t (1 : Fin 2) * 64 + 1 * q.val; omega
  simp only [hx, hw, hb]

/-- An index of the array is in point `t`'s block iff each coordinate is in the block's range on its axis. -/
theorem mem_blk10 (t : Fin cfg0.N) (i : S50000x64.Idx) :
    i ∈ ((cfg0.win 10).blk t).view.set ↔ ∀ a : Fin 2, win0_10.index t a * S2000x64.size a ≤ (i a).val
      ∧ (i a).val < win0_10.index t a * S2000x64.size a + S2000x64.size a := by
  show i ∈ ((View.whole main_v3_1).slice (win0_10.rect t)).set ↔ _
  rw [View.set_slice_whole, Rect.mem_set_unit]
  exact Iff.rfl

/-- Every row of the array is in the block of the point `row / 2000`. -/
theorem cover10 (i : S50000x64.Idx) : ∃ t : Fin cfg0.N, (cfg0.win 10).flush t = true ∧ i ∈ ((cfg0.win 10).blk t).view.set := by
  have hi0 : (i 0).val < 50000 := (i 0).isLt
  have hi1 : (i 1).val < 64 := (i 1).isLt
  have hN : grid0.N = 25 := N_0
  have ht : (i 0).val / 2000 < grid0.N := by omega
  obtain ⟨a0, b0, a1, b1, a2, b2, a3, b3, a4, b4, a5, b5, a6, b6, a7, b7, a8, b8, a9, b9, a10, b10, a11, b11⟩ := idx_facts ⟨(i 0).val / 2000, ht⟩
  refine ⟨⟨(i 0).val / 2000, ht⟩, flush0_10 _, ?_⟩
  rw [mem_blk10]
  intro a
  match a with
  | ⟨0, _⟩ =>
    show win0_10.index ⟨(i 0).val / 2000, ht⟩ (0 : Fin 2) * 2000 ≤ (i 0).val
      ∧ (i 0).val < win0_10.index ⟨(i 0).val / 2000, ht⟩ (0 : Fin 2) * 2000 + 2000
    rw [a10]; show (i 0).val / 2000 * 2000 ≤ (i 0).val ∧ (i 0).val < (i 0).val / 2000 * 2000 + 2000; omega
  | ⟨1, _⟩ =>
    show win0_10.index ⟨(i 0).val / 2000, ht⟩ (1 : Fin 2) * 64 ≤ (i 1).val
      ∧ (i 1).val < win0_10.index ⟨(i 0).val / 2000, ht⟩ (1 : Fin 2) * 64 + 64
    rw [b10]; omega

/-- The array of window 10 after the region: the projection of the region's entry contents. -/
theorem final10 (c : Dev nD) : (dat0 V c).arrAt 10 cfg0.N = rowProj (V c main_arg1) (V c main_arg7) (V c main_v1) :=
  (dat0 V c).arrAt_eq_of_cover 10 (rowProj (V c main_arg1) (V c main_arg7) (V c main_v1)) (fun t _ => flushed10_eq V c t) (cover10)

/-! ## Output window 11: `main_v3_2` -/

/-- The stored value at row `r`, column `q`: row `r` of the input block against column `q` of the weight, plus the bias. -/
theorem k0_pay3_apply (v0 : Vec Ideal S2000x64 .f32) (v6 : Vec Ideal S64x64 .f32) (v13 : Vec Ideal S1x64 .f32) (r : Fin 2000) (q : Fin 64) :
    k0_pay3 (F := Ideal) v0 v6 v13 (ix2 r q) = (∑ l : Fin 64, v0 (ix2 r l) * v6 (ix2 l q)) + v13 (ix2 (0 : Fin 1) q) := by
  unfold k0_pay3
  simp only [truncf_apply, addf_apply]
  refine congrArg₂ (· + ·) ?_ ?_
  · exact PlainDot.matmul_zero_apply dot_S2000x64_S64x64_S2000x64_1_0_0_1_n_n rfl none _ _ r q
  · exact (broadcastTo_1b_ab_apply _ _ r q).trans (congrFun (shapeCast_self v13 _) _)

/-- What point `t` writes back to window 11 is block `t` of the projection of the arrays the region finds. -/
theorem flushed11_eq (c : Dev nD) (t : Fin cfg0.N) :
    (dat0 V c).flushed 11 t
      = ((cfg0.win 11).blk t).view.read (Elt Ideal) (rowProj (V c main_arg2) (V c main_arg9) (V c main_v2)) := by
  show (cfg0.win 11).cut (grid0.coords t) ((dat0 V c).after 11 t) = _
  rw [after0_11]
  unfold out0_11
  rw [View.canon_unit_zero hz2]
  simp only [View.ld_unit_zero (S := S2000x64) hz2, View.ld_unit_zero (S := S64x64) hz2, View.ld_unit_zero (S := S1x64) hz2]
  obtain ⟨a0, b0, a1, b1, a2, b2, a3, b3, a4, b4, a5, b5, a6, b6, a7, b7, a8, b8, a9, b9, a10, b10, a11, b11⟩ := idx_facts t
  refine funext fun (y : S2000x64.Idx) => ?_
  obtain ⟨r, q, rfl⟩ : ∃ (r : Fin 2000) (q : Fin 64), y = ix2 r q := ⟨y 0, y 1, eq_ix2 y⟩
  refine (k0_pay3_apply (iblk0 V c 2 t) (iblk0 V c 7 t) (iblk0 V c 8 t) r q).trans ?_
  show _ = rowProj (V c main_arg2) (V c main_arg9) (V c main_v2) (((cfg0.win 11).blk t).view.emb (ix2 r q))
  unfold rowProj
  have hx : ∀ l : Fin 64, iblk0 V c 2 t (ix2 r l) = V c main_arg2 (ix2 (((cfg0.win 11).blk t).view.emb (ix2 r q) 0) l) := by
    intro l
    show V c main_arg2 (((cfg0.win 2).blk t).view.emb (ix2 r l)) = _
    refine congrArg (V c main_arg2) (funext fun a => Fin.ext ?_)
    match a with
    | ⟨0, _⟩ => show win0_2.index t (0 : Fin 2) * 2000 + 1 * r.val = win0_11.index t (0 : Fin 2) * 2000 + 1 * r.val; omega
    | ⟨1, _⟩ => show win0_2.index t (1 : Fin 2) * 64 + 1 * l.val = l.val; omega
  have hw : ∀ l : Fin 64, iblk0 V c 7 t (ix2 l q) = V c main_arg9 (ix2 l (((cfg0.win 11).blk t).view.emb (ix2 r q) 1)) := by
    intro l
    show V c main_arg9 (((cfg0.win 7).blk t).view.emb (ix2 l q)) = _
    refine congrArg (V c main_arg9) (funext fun a => Fin.ext ?_)
    match a with
    | ⟨0, _⟩ => show win0_7.index t (0 : Fin 2) * 64 + 1 * l.val = l.val; omega
    | ⟨1, _⟩ => show win0_7.index t (1 : Fin 2) * 64 + 1 * q.val = win0_11.index t (1 : Fin 2) * 64 + 1 * q.val; omega
  have hb : iblk0 V c 8 t (ix2 (0 : Fin 1) q) = V c main_v2 (ix2 (0 : Fin 1) (((cfg0.win 11).blk t).view.emb (ix2 r q) 1)) := by
    show V c main_v2 (((cfg0.win 8).blk t).view.emb (ix2 (0 : Fin 1) q)) = _
    refine congrArg (V c main_v2) (funext fun a => Fin.ext ?_)
    match a with
    | ⟨0, _⟩ => show win0_8.index t (0 : Fin 2) * 1 + 1 * 0 = 0; omega
    | ⟨1, _⟩ => show win0_8.index t (1 : Fin 2) * 64 + 1 * q.val = win0_11.index t (1 : Fin 2) * 64 + 1 * q.val; omega
  simp only [hx, hw, hb]

/-- An index of the array is in point `t`'s block iff each coordinate is in the block's range on its axis. -/
theorem mem_blk11 (t : Fin cfg0.N) (i : S50000x64.Idx) :
    i ∈ ((cfg0.win 11).blk t).view.set ↔ ∀ a : Fin 2, win0_11.index t a * S2000x64.size a ≤ (i a).val
      ∧ (i a).val < win0_11.index t a * S2000x64.size a + S2000x64.size a := by
  show i ∈ ((View.whole main_v3_2).slice (win0_11.rect t)).set ↔ _
  rw [View.set_slice_whole, Rect.mem_set_unit]
  exact Iff.rfl

/-- Every row of the array is in the block of the point `row / 2000`. -/
theorem cover11 (i : S50000x64.Idx) : ∃ t : Fin cfg0.N, (cfg0.win 11).flush t = true ∧ i ∈ ((cfg0.win 11).blk t).view.set := by
  have hi0 : (i 0).val < 50000 := (i 0).isLt
  have hi1 : (i 1).val < 64 := (i 1).isLt
  have hN : grid0.N = 25 := N_0
  have ht : (i 0).val / 2000 < grid0.N := by omega
  obtain ⟨a0, b0, a1, b1, a2, b2, a3, b3, a4, b4, a5, b5, a6, b6, a7, b7, a8, b8, a9, b9, a10, b10, a11, b11⟩ := idx_facts ⟨(i 0).val / 2000, ht⟩
  refine ⟨⟨(i 0).val / 2000, ht⟩, flush0_11 _, ?_⟩
  rw [mem_blk11]
  intro a
  match a with
  | ⟨0, _⟩ =>
    show win0_11.index ⟨(i 0).val / 2000, ht⟩ (0 : Fin 2) * 2000 ≤ (i 0).val
      ∧ (i 0).val < win0_11.index ⟨(i 0).val / 2000, ht⟩ (0 : Fin 2) * 2000 + 2000
    rw [a11]; show (i 0).val / 2000 * 2000 ≤ (i 0).val ∧ (i 0).val < (i 0).val / 2000 * 2000 + 2000; omega
  | ⟨1, _⟩ =>
    show win0_11.index ⟨(i 0).val / 2000, ht⟩ (1 : Fin 2) * 64 ≤ (i 1).val
      ∧ (i 1).val < win0_11.index ⟨(i 0).val / 2000, ht⟩ (1 : Fin 2) * 64 + 64
    rw [b11]; omega

/-- The array of window 11 after the region: the projection of the region's entry contents. -/
theorem final11 (c : Dev nD) : (dat0 V c).arrAt 11 cfg0.N = rowProj (V c main_arg2) (V c main_arg9) (V c main_v2) :=
  (dat0 V c).arrAt_eq_of_cover 11 (rowProj (V c main_arg2) (V c main_arg9) (V c main_v2)) (fun t _ => flushed11_eq V c t) (cover11)

end Cert.ProjValue

end
-- ==== Proof.KernelValue.lean ====
/-
  The kernel program's result, as a function of its arguments. @main is five segments: three bias reshapes; the
  projection region; the index columns, their wrap-around of negative entries, three row gathers and four more
  reshapes; the edge region; a zero array, the raw first index column again, and the add-scatter. The contents at each
  boundary are read back one stretch at a time: a buffer a stretch writes holds its operation's value of the
  operands' contents, any other buffer what it held before, and across a region the region's arrays hold what the
  two array lemmas say while every other buffer is untouched. The gathers and the scatter are not opened: they are
  applied to arrays that are named here, and the reference applies the same operations to the same arrays.
-/
import proofs.«132439_j53944789238361_2_alg».proof.Proof.Gen.KernelIdeal.Frame
import proofs.«132439_j53944789238361_2_alg».proof.Proof.EdgeSpec
import proofs.«132439_j53944789238361_2_alg».proof.Proof.EdgeValue
import proofs.«132439_j53944789238361_2_alg».proof.Proof.ProjValue
import Idealize.ShloMosaic.Lib.StableHlo.Run
import Idealize.ShloMosaic.Lib.ValueLayout

noncomputable section

namespace Cert.KernelValue

open Cert.KernelIdeal Cert.KernelIdeal.Gen Cert.EdgeSpec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Names for the index columns -/

/-- The first column of the edge index (the node an edge is aggregated at), as a vector of 800000 entries. -/
def col0 (x4 : (⟨S800000x2, .i32⟩ : BufTy).Contents (Elt Ideal)) : (⟨S800000, .i32⟩ : BufTy).Contents (Elt Ideal) :=
  shapeCast S800000 (extractStridedSlice S800000x1 ![0, 0] x4 slices_S800000x2_S800000x1_0_0) shapeCasts_S800000x1_S800000

/-- The second column of the edge index (the neighbour an edge reads key and value from). -/
def col1 (x4 : (⟨S800000x2, .i32⟩ : BufTy).Contents (Elt Ideal)) : (⟨S800000, .i32⟩ : BufTy).Contents (Elt Ideal) :=
  shapeCast S800000 (extractStridedSlice S800000x1 ![0, 1] x4 slices_S800000x2_S800000x1_0_1) shapeCasts_S800000x1_S800000

/-- An index vector with its negative entries wrapped around by 50000, as the one-column array a row gather takes. -/
def wrapped (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Rows of a node array gathered at an index column. -/
abbrev rowsAt (x : S50000x64.Idx → EReal) (ix : (⟨S800000x1, .i32⟩ : BufTy).Contents (Elt Ideal)) : S800000x64.Idx → EReal :=
  Host.gather gather_S50000x64_S800000x1_S800000x64_1_0_n_n_0_1_164 x ix

/-! ## The entry of the projection region -/

theorem V1_arg0 (c : Dev nD) : V1 m ρ c main_arg0 = m ((c : Thread nD τ).loc main_arg0) := by
  show StableHlo.after hostOps0 (W0 m ρ c) (Proc.devRef .tc main_arg0) = _
  after_results
  all_goals rfl
theorem V1_arg1 (c : Dev nD) : V1 m ρ c main_arg1 = m ((c : Thread nD τ).loc main_arg1) := by
  show StableHlo.after hostOps0 (W0 m ρ c) (Proc.devRef .tc main_arg1) = _
  after_results
  all_goals rfl
theorem V1_arg2 (c : Dev nD) : V1 m ρ c main_arg2 = m ((c : Thread nD τ).loc main_arg2) := by
  show StableHlo.after hostOps0 (W0 m ρ c) (Proc.devRef .tc main_arg2) = _
  after_results
  all_goals rfl
theorem V1_arg5 (c : Dev nD) : V1 m ρ c main_arg5 = m ((c : Thread nD τ).loc main_arg5) := by
  show StableHlo.after hostOps0 (W0 m ρ c) (Proc.devRef .tc main_arg5) = _
  after_results
  all_goals rfl
theorem V1_arg7 (c : Dev nD) : V1 m ρ c main_arg7 = m ((c : Thread nD τ).loc main_arg7) := by
  show StableHlo.after hostOps0 (W0 m ρ c) (Proc.devRef .tc main_arg7) = _
  after_results
  all_goals rfl
theorem V1_arg9 (c : Dev nD) : V1 m ρ c main_arg9 = m ((c : Thread nD τ).loc main_arg9) := by
  show StableHlo.after hostOps0 (W0 m ρ c) (Proc.devRef .tc main_arg9) = _
  after_results
  all_goals rfl
theorem V1_v0 (c : Dev nD) : V1 m ρ c main_v0 = shapeCast S1x64 (m ((c : Thread nD τ).loc main_arg6)) shapeCasts_S64_S1x64 := by
  show StableHlo.after hostOps0 (W0 m ρ c) (Proc.devRef .tc main_v0) = _
  after_results
  all_goals rfl
theorem V1_v1 (c : Dev nD) : V1 m ρ c main_v1 = shapeCast S1x64 (m ((c : Thread nD τ).loc main_arg8)) shapeCasts_S64_S1x64 := by
  show StableHlo.after hostOps0 (W0 m ρ c) (Proc.devRef .tc main_v1) = _
  after_results
  all_goals rfl
theorem V1_v2 (c : Dev nD) : V1 m ρ c main_v2 = shapeCast S1x64 (m ((c : Thread nD τ).loc main_arg10)) shapeCasts_S64_S1x64 := by
  show StableHlo.after hostOps0 (W0 m ρ c) (Proc.devRef .tc main_v2) = _
  after_results
  all_goals rfl

/-- A buffer no reshape of the first stretch writes holds its launch contents at the projection region's entry. -/
theorem W1_keep (c : Dev nD) (b : Ref sig .tc) (h0 : b ≠ main_v0) (h1 : b ≠ main_v1) (h2 : b ≠ main_v2) :
    W1 m ρ c (Proc.devRef .tc b) = m ((c : Thread nD τ).loc b) := by
  show StableHlo.after hostOps0 (W0 m ρ c) (Proc.devRef .tc b) = _
  simp only [after_cons, after_nil]
  rw [reshape_result_ne (h := h2), reshape_result_ne (h := h1), reshape_result_ne (h := h0)]

/-! ## After the projection region -/

/-- The projection with its bias row given as the reshape of a 64-entry vector is the projection with that vector. -/
theorem rowProj_reshape (x : S50000x64.Idx → EReal) (w : S64x64.Idx → EReal) (b : S64.Idx → EReal) :
    ProjValue.rowProj x w (shapeCast S1x64 b shapeCasts_S64_S1x64) = proj x w b := by
  funext i
  unfold ProjValue.rowProj proj
  exact congrArg ((∑ l : Fin 64, x (ix2 (i 0) l) * w (ix2 l (i 1))) + ·)
    (shapeCast_a_1a_apply b shapeCasts_S64_S1x64 (0 : Fin 1) (i 1))

theorem W2_v3_0 (c : Dev nD) : W2 m ρ c (Proc.devRef .tc main_v3_0)
    = proj (m ((c : Thread nD τ).loc main_arg0)) (m ((c : Thread nD τ).loc main_arg5)) (m ((c : Thread nD τ).loc main_arg6)) := by
  refine (W2_arr m ρ c 9).trans ((ProjValue.final9 (V1 m ρ) c).trans ?_)
  rw [V1_arg0, V1_arg5, V1_v0]
  exact rowProj_reshape _ _ _
theorem W2_v3_1 (c : Dev nD) : W2 m ρ c (Proc.devRef .tc main_v3_1)
    = proj (m ((c : Thread nD τ).loc main_arg1)) (m ((c : Thread nD τ).loc main_arg7)) (m ((c : Thread nD τ).loc main_arg8)) := by
  refine (W2_arr m ρ c 10).trans ((ProjValue.final10 (V1 m ρ) c).trans ?_)
  rw [V1_arg1, V1_arg7, V1_v1]
  exact rowProj_reshape _ _ _
theorem W2_v3_2 (c : Dev nD) : W2 m ρ c (Proc.devRef .tc main_v3_2)
    = proj (m ((c : Thread nD τ).loc main_arg2)) (m ((c : Thread nD τ).loc main_arg9)) (m ((c : Thread nD τ).loc main_arg10)) := by
  refine (W2_arr m ρ c 11).trans ((ProjValue.final11 (V1 m ρ) c).trans ?_)
  rw [V1_arg2, V1_arg9, V1_v2]
  exact rowProj_reshape _ _ _

/-- An argument the projection region does not stage holds its launch contents after it. -/
theorem W2_keep (c : Dev nD) (b : Ref sig .tc) (hb : ∀ w, Pipeline.arrRef spec0 w ≠ b) (h0 : b ≠ main_v0) (h1 : b ≠ main_v1)
    (h2 : b ≠ main_v2) : W2 m ρ c (Proc.devRef .tc b) = m ((c : Thread nD τ).loc b) :=
  (W2_of_ne m ρ c b hb).trans (W1_keep m ρ c b h0 h1 h2)

theorem W2_arg3 (c : Dev nD) : W2 m ρ c (Proc.devRef .tc main_arg3) = m ((c : Thread nD τ).loc main_arg3) :=
  W2_keep m ρ c main_arg3 (by decide) (by decide) (by decide) (by decide)
theorem W2_arg4 (c : Dev nD) : W2 m ρ c (Proc.devRef .tc main_arg4) = m ((c : Thread nD τ).loc main_arg4) :=
  W2_keep m ρ c main_arg4 (by decide) (by decide) (by decide) (by decide)
theorem W2_arg11 (c : Dev nD) : W2 m ρ c (Proc.devRef .tc main_arg11) = m ((c : Thread nD τ).loc main_arg11) :=
  W2_keep m ρ c main_arg11 (by decide) (by decide) (by decide) (by decide)
theorem W2_arg12 (c : Dev nD) : W2 m ρ c (Proc.devRef .tc main_arg12) = m ((c : Thread nD τ).loc main_arg12) :=
  W2_keep m ρ c main_arg12 (by decide) (by decide) (by decide) (by decide)
theorem W2_arg13 (c : Dev nD) : W2 m ρ c (Proc.devRef .tc main_arg13) = m ((c : Thread nD τ).loc main_arg13) :=
  W2_keep m ρ c main_arg13 (by decide) (by decide) (by decide) (by decide)
theorem W2_arg14 (c : Dev nD) : W2 m ρ c (Proc.devRef .tc main_arg14) = m ((c : Thread nD τ).loc main_arg14) :=
  W2_keep m ρ c main_arg14 (by decide) (by decide) (by decide) (by decide)
theorem W2_arg15 (c : Dev nD) : W2 m ρ c (Proc.devRef .tc main_arg15) = m ((c : Thread nD τ).loc main_arg15) :=
  W2_keep m ρ c main_arg15 (by decide) (by decide) (by decide) (by decide)
theorem W2_arg16 (c : Dev nD) : W2 m ρ c (Proc.devRef .tc main_arg16) = m ((c : Thread nD τ).loc main_arg16) :=
  W2_keep m ρ c main_arg16 (by decide) (by decide) (by decide) (by decide)

/-! ## The entry of the edge region -/

theorem V3_v14 (c : Dev nD) : V3 m ρ c main_v14
    = rowsAt (proj (m ((c : Thread nD τ).loc main_arg0)) (m ((c : Thread nD τ).loc main_arg5)) (m ((c : Thread nD τ).loc main_arg6)))
        (wrapped (col0 (m ((c : Thread nD τ).loc main_arg4)))) := by
  show StableHlo.after hostOps1 (W2 m ρ c) (Proc.devRef .tc main_v14) = _
  after_results_simp
  rw [W2_v3_0, W2_arg4]
  rfl
theorem V3_v21 (c : Dev nD) : V3 m ρ c main_v21
    = rowsAt (proj (m ((c : Thread nD τ).loc main_arg1)) (m ((c : Thread nD τ).loc main_arg7)) (m ((c : Thread nD τ).loc main_arg8)))
        (wrapped (col1 (m ((c : Thread nD τ).loc main_arg4)))) := by
  show StableHlo.after hostOps1 (W2 m ρ c) (Proc.devRef .tc main_v21) = _
  after_results_simp
  rw [W2_v3_1, W2_arg4]
  rfl
theorem V3_v28 (c : Dev nD) : V3 m ρ c main_v28
    = rowsAt (proj (m ((c : Thread nD τ).loc main_arg2)) (m ((c : Thread nD τ).loc main_arg9)) (m ((c : Thread nD τ).loc main_arg10)))
        (wrapped (col1 (m ((c : Thread nD τ).loc main_arg4)))) := by
  show StableHlo.after hostOps1 (W2 m ρ c) (Proc.devRef .tc main_v28) = _
  after_results_simp
  rw [W2_v3_2, W2_arg4]
  rfl
theorem V3_arg3 (c : Dev nD) : V3 m ρ c main_arg3 = m ((c : Thread nD τ).loc main_arg3) := by
  show StableHlo.after hostOps1 (W2 m ρ c) (Proc.devRef .tc main_arg3) = _
  after_results_simp
  exact W2_arg3 m ρ c
theorem V3_arg13 (c : Dev nD) : V3 m ρ c main_arg13 = m ((c : Thread nD τ).loc main_arg13) := by
  show StableHlo.after hostOps1 (W2 m ρ c) (Proc.devRef .tc main_arg13) = _
  after_results_simp
  exact W2_arg13 m ρ c
theorem V3_arg15 (c : Dev nD) : V3 m ρ c main_arg15 = m ((c : Thread nD τ).loc main_arg15) := by
  show StableHlo.after hostOps1 (W2 m ρ c) (Proc.devRef .tc main_arg15) = _
  after_results_simp
  exact W2_arg15 m ρ c
theorem V3_v29 (c : Dev nD) : V3 m ρ c main_v29 = shapeCast S1x16 (m ((c : Thread nD τ).loc main_arg11)) shapeCasts_S16x1_S1x16 := by
  show StableHlo.after hostOps1 (W2 m ρ c) (Proc.devRef .tc main_v29) = _
  after_results_simp
  rw [W2_arg11]
  rfl
theorem V3_v30 (c : Dev nD) : V3 m ρ c main_v30 = shapeCast S1x1 (m ((c : Thread nD τ).loc main_arg12)) shapeCasts_S1_S1x1 := by
  show StableHlo.after hostOps1 (W2 m ρ c) (Proc.devRef .tc main_v30) = _
  after_results_simp
  rw [W2_arg12]
  rfl
theorem V3_v31 (c : Dev nD) : V3 m ρ c main_v31 = shapeCast S1x8 (m ((c : Thread nD τ).loc main_arg14)) shapeCasts_S8_S1x8 := by
  show StableHlo.after hostOps1 (W2 m ρ c) (Proc.devRef .tc main_v31) = _
  after_results_simp
  rw [W2_arg14]
  rfl
theorem V3_v32 (c : Dev nD) : V3 m ρ c main_v32 = shapeCast S1x8 (m ((c : Thread nD τ).loc main_arg16)) shapeCasts_S8_S1x8 := by
  show StableHlo.after hostOps1 (W2 m ρ c) (Proc.devRef .tc main_v32) = _
  after_results_simp
  rw [W2_arg16]
  rfl
theorem W3_v5 (c : Dev nD) : W3 m ρ c (Proc.devRef .tc main_v5) = col0 (m ((c : Thread nD τ).loc main_arg4)) := by
  show StableHlo.after hostOps1 (W2 m ρ c) (Proc.devRef .tc main_v5) = _
  after_results_simp
  rw [W2_arg4]
  rfl

/-! ## After the edge region, and the result -/

/-- The gathered rows and the weights the edge region finds, as the arguments' arrays. -/
def messages (c : Dev nD) : S800000x64.Idx → EReal :=
  msg (rowsAt (proj (m ((c : Thread nD τ).loc main_arg0)) (m ((c : Thread nD τ).loc main_arg5)) (m ((c : Thread nD τ).loc main_arg6)))
        (wrapped (col0 (m ((c : Thread nD τ).loc main_arg4)))))
      (rowsAt (proj (m ((c : Thread nD τ).loc main_arg1)) (m ((c : Thread nD τ).loc main_arg7)) (m ((c : Thread nD τ).loc main_arg8)))
        (wrapped (col1 (m ((c : Thread nD τ).loc main_arg4)))))
      (rowsAt (proj (m ((c : Thread nD τ).loc main_arg2)) (m ((c : Thread nD τ).loc main_arg9)) (m ((c : Thread nD τ).loc main_arg10)))
        (wrapped (col1 (m ((c : Thread nD τ).loc main_arg4)))))
      (m ((c : Thread nD τ).loc main_arg3)) (m ((c : Thread nD τ).loc main_arg11)) (m ((c : Thread nD τ).loc main_arg12))
      (m ((c : Thread nD τ).loc main_arg13)) (m ((c : Thread nD τ).loc main_arg14)) (m ((c : Thread nD τ).loc main_arg15))
      (m ((c : Thread nD τ).loc main_arg16))

/-- The edge region's output array is the message array of the arguments. -/
theorem W4_v33 (c : Dev nD) : W4 m ρ c (Proc.devRef .tc main_v33) = messages m c := by
  refine (W4_arr m ρ c 10).trans ((EdgeValue.final (V3 m ρ) c).trans ?_)
  unfold EdgeValue.msgOf messages msg
  rw [V3_v14, V3_v21, V3_v28, V3_arg3, V3_v29, V3_v30, V3_arg13, V3_v31, V3_arg15, V3_v32]
  funext i
  refine EdgeValue.rowMsg_congr rfl rfl rfl rfl (funext fun j => ?_) ?_ rfl (funext fun j => ?_) rfl (funext fun j => ?_) rfl
  · exact shapeCast_apply _ shapeCasts_S16x1_S1x16 (ix2 (0 : Fin 1) j) (ix2 j (0 : Fin 1)) (by
      rw [Shape.rowMajor_val_two, Shape.rowMajor_val_two]; show j.val * 1 + 0 = 0 * 16 + j.val; omega)
  · exact shapeCast_a_1a_apply _ shapeCasts_S1_S1x1 (0 : Fin 1) (0 : Fin 1)
  · exact shapeCast_a_1a_apply _ shapeCasts_S8_S1x8 (0 : Fin 1) j
  · exact shapeCast_a_1a_apply _ shapeCasts_S8_S1x8 (0 : Fin 1) j

theorem W4_v5 (c : Dev nD) : W4 m ρ c (Proc.devRef .tc main_v5) = col0 (m ((c : Thread nD τ).loc main_arg4)) :=
  (W4_of_ne m ρ c main_v5 (by decide)).trans (W3_v5 m ρ c)

/-- THE RESULT: the zero array with the message array added in, row `e` at the node the first index column names. -/
def result (c : Dev nD) : S50000x64.Idx → EReal :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 (col0 (m ((c : Thread nD τ).loc main_arg4))))
    (messages m c)

theorem W5_v36 (c : Dev nD) : W5 m ρ c (Proc.devRef .tc main_v36) = result m c := by
  show StableHlo.after hostOps2 (W4 m ρ c) (Proc.devRef .tc main_v36) = _
  after_results
  rw [W4_v5, W4_v33]
  rfl

end Cert.KernelValue

end
-- ==== Proof.RefValue.lean ====
/-
  The reference program's result, as a function of its arguments. Its run ends at one composed term; read one
  operation at a time, the updates of its closing add-scatter are, at row `e` and column `c`, `rowMsg` of row `e` of
  the three gathered arrays and of the edge features: the positional bias is a dot product with the 16×1 weight
  column plus the scalar bias spread over the row; the two small layers are dot products; the softmax is a maximum
  over the row (a fold of the host's reduce), an exponential, a sum and a quotient; and the last three operations view
  the 64 columns as 8 groups of 8, multiply group entry `(s, j)` by weight `j`, and view them as 64 columns again, so
  that column `c = 8·s + j` takes weight `c mod 8`. The gathered arrays are rows of the projections `x · W + b`.
-/
import proofs.«132439_j53944789238361_2_alg».proof.Proof.Gen.ReferenceIdeal.Read
import proofs.«132439_j53944789238361_2_alg».proof.Proof.EdgeSpec
import Idealize.ShloMosaic.Lib.ValueIdx
import Idealize.ShloMosaic.PureOps.Ideal.Laws

noncomputable section

namespace Cert.RefValue

open Cert.ReferenceIdeal Cert.ReferenceIdeal.Gen Cert.ReferenceIdeal.Read Cert.EdgeSpec
open Idealize.ShloMosaic Idealize.ShloMosaic.ValueIdx

/-! ## The projections -/

theorem proj_q (x : (⟨S50000x64, .f32⟩ : BufTy).Contents (Elt Ideal)) (w : (⟨S64x64, .f32⟩ : BufTy).Contents (Elt Ideal))
    (b : (⟨S64, .f32⟩ : BufTy).Contents (Elt Ideal)) : val_main_v7 (F := Ideal) x w b = proj x w b := by
  funext i
  obtain ⟨n, q, rfl⟩ : ∃ (n : Fin 50000) (q : Fin 64), i = ix2 n q := ⟨i 0, i 1, eq_ix2 i⟩
  rw [val_main_v7_apply, val_main_v4_apply, val_main_v6_apply, val_main_v5_apply]
  unfold proj
  refine congrArg₂ (· + ·) (Finset.sum_congr rfl fun k _ => congrArg₂ (· * ·) (congrArg x ?_) (congrArg w ?_)) (congrArg b ?_)
  · exact funext (fun a => by match a with | ⟨0, _⟩ => rfl | ⟨1, _⟩ => rfl)
  · exact funext (fun a => by match a with | ⟨0, _⟩ => rfl | ⟨1, _⟩ => rfl)
  · exact funext (fun a => by match a with | ⟨0, _⟩ => rfl)

theorem proj_k (x : (⟨S50000x64, .f32⟩ : BufTy).Contents (Elt Ideal)) (w : (⟨S64x64, .f32⟩ : BufTy).Contents (Elt Ideal))
    (b : (⟨S64, .f32⟩ : BufTy).Contents (Elt Ideal)) : val_main_v18 (F := Ideal) x w b = proj x w b := by
  funext i
  obtain ⟨n, q, rfl⟩ : ∃ (n : Fin 50000) (q : Fin 64), i = ix2 n q := ⟨i 0, i 1, eq_ix2 i⟩
  rw [val_main_v18_apply, val_main_v15_apply, val_main_v17_apply, val_main_v16_apply]
  unfold proj
  refine congrArg₂ (· + ·) (Finset.sum_congr rfl fun k _ => congrArg₂ (· * ·) (congrArg x ?_) (congrArg w ?_)) (congrArg b ?_)
  · exact funext (fun a => by match a with | ⟨0, _⟩ => rfl | ⟨1, _⟩ => rfl)
  · exact funext (fun a => by match a with | ⟨0, _⟩ => rfl | ⟨1, _⟩ => rfl)
  · exact funext (fun a => by match a with | ⟨0, _⟩ => rfl)

theorem proj_v (x : (⟨S50000x64, .f32⟩ : BufTy).Contents (Elt Ideal)) (w : (⟨S64x64, .f32⟩ : BufTy).Contents (Elt Ideal))
    (b : (⟨S64, .f32⟩ : BufTy).Contents (Elt Ideal)) : val_main_v29 (F := Ideal) x w b = proj x w b := by
  funext i
  obtain ⟨n, q, rfl⟩ : ∃ (n : Fin 50000) (q : Fin 64), i = ix2 n q := ⟨i 0, i 1, eq_ix2 i⟩
  rw [val_main_v29_apply, val_main_v26_apply, val_main_v28_apply, val_main_v27_apply]
  unfold proj
  refine congrArg₂ (· + ·) (Finset.sum_congr rfl fun k _ => congrArg₂ (· * ·) (congrArg x ?_) (congrArg w ?_)) (congrArg b ?_)
  · exact funext (fun a => by match a with | ⟨0, _⟩ => rfl | ⟨1, _⟩ => rfl)
  · exact funext (fun a => by match a with | ⟨0, _⟩ => rfl | ⟨1, _⟩ => rfl)
  · exact funext (fun a => by match a with | ⟨0, _⟩ => rfl)

/-! ## The host's row maximum -/

/-- The host's reduce with a maximum body over the 8 entries of row `e`, from −∞: the fold of `max` over the row. -/
theorem hostRowMax8 (x : FVec Ideal S800000x8 .f32) (e : Fin 800000) :
    Host.reduce FloatOps.maximumf x (constant (F := Ideal) S_ .f32 0xFF800000#32) reducesTo_S800000x8_S800000_d1 h_S_ (ix1 e)
      = (Finset.univ : Finset (Fin 8)).fold max ninfW (fun l => x (ix2 e l)) := by
  have hr : S800000x8.Reduces [1] S800000 := by decide
  rw [Host.reduce_eq_fold_single FloatOps.maximumf x _ reducesTo_S800000x8_S800000_d1 hr h_S_]
  have hf : (x ∘ hr.lift (ix1 e)) = fun l : Fin 8 => x (ix2 e l) :=
    funext fun k => congrArg x (funext fun ax => Fin.ext (by match ax with | ⟨0, _⟩ => rfl | ⟨1, _⟩ => rfl))
  exact congrArg (fun f => Finset.fold max ninfW f (Finset.univ : Finset (Fin 8))) hf

/-! ## The stages at an entry -/

section Stages

variable (x0 x1 x2 : (⟨S50000x64, .f32⟩ : BufTy).Contents (Elt Ideal)) (x3 : (⟨S800000x16, .f32⟩ : BufTy).Contents (Elt Ideal))
  (x4 : (⟨S800000x2, .i32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S16x1, .f32⟩ : BufTy).Contents (Elt Ideal))
  (x12 : (⟨S1, .f32⟩ : BufTy).Contents (Elt Ideal)) (x13 : (⟨S64x8, .f32⟩ : BufTy).Contents (Elt Ideal))
  (x14 : (⟨S8, .f32⟩ : BufTy).Contents (Elt Ideal)) (x15 : (⟨S8x8, .f32⟩ : BufTy).Contents (Elt Ideal))
  (x16 : (⟨S8, .f32⟩ : BufTy).Contents (Elt Ideal))

/-- The positional bias of edge `e`. -/
theorem bias_apply (e : Fin 800000) (u : Fin 1) :
    val_main_v40 (F := Ideal) x3 x11 x12 (ix2 e u) = (bias (fun j => x3 (ix2 e j)) (fun j => x11 (ix2 j (0 : Fin 1))) (x12 (ix1 (0 : Fin 1)))) := by
  rw [val_main_v40_apply, val_main_v37_apply, val_main_v39_apply, val_main_v38_apply]
  unfold bias
  refine congrArg₂ (· + ·) (Finset.sum_congr rfl fun k _ => congrArg₂ (· * ·) (congrArg x3 ?_) (congrArg x11 ?_)) (congrArg x12 ?_)
  · exact funext (fun a => by match a with | ⟨0, _⟩ => rfl | ⟨1, _⟩ => rfl)
  · exact funext (fun a => by match a with | ⟨0, _⟩ => rfl | ⟨1, _⟩ => exact Fin.ext (by show u.val = 0; omega))
  · exact funext (fun a => by match a with | ⟨0, _⟩ => rfl)

/-- The first hidden row of edge `e`. -/
theorem hid0_apply (e : Fin 800000) (l : Fin 64) :
    val_main_v44 (F := Ideal) x0 x1 x3 x4 x5 x6 x7 x8 x11 x12 (ix2 e l) = (hid0 (fun l => val_main_v14 (F := Ideal) x0 x4 x5 x6 (ix2 e l)) (fun l => val_main_v25 (F := Ideal) x1 x4 x7 x8 (ix2 e l)) (bias (fun j => x3 (ix2 e j)) (fun j => x11 (ix2 j (0 : Fin 1))) (x12 (ix1 (0 : Fin 1))))) l := by
  rw [val_main_v44_apply, val_main_v43_apply, val_main_v41_apply, val_main_v42_apply, val_main_call0_v0_apply,
    val_main_call0_cst_apply]
  have hi : idx_main_v42 (ix2 e l) = ix2 e (0 : Fin 1) := funext (fun a => by match a with | ⟨0, _⟩ => rfl | ⟨1, _⟩ => rfl)
  rw [hi, bias_apply]
  rfl

/-- The second hidden row of edge `e`. -/
theorem hid1_apply (e : Fin 800000) (j : Fin 8) :
    val_main_v49 (F := Ideal) x0 x1 x3 x4 x5 x6 x7 x8 x11 x12 x13 x14 (ix2 e j) = (hid1 (hid0 (fun l => val_main_v14 (F := Ideal) x0 x4 x5 x6 (ix2 e l)) (fun l => val_main_v25 (F := Ideal) x1 x4 x7 x8 (ix2 e l)) (bias (fun j => x3 (ix2 e j)) (fun j => x11 (ix2 j (0 : Fin 1))) (x12 (ix1 (0 : Fin 1))))) (fun l j => x13 (ix2 l j)) (fun j => x14 (ix1 j))) j := by
  rw [val_main_v49_apply, val_main_v48_apply, val_main_v45_apply, val_main_v47_apply, val_main_v46_apply,
    val_main_call1_v0_apply, val_main_call1_cst_apply]
  unfold hid1
  refine congrArg₂ max (congrArg₂ (· + ·) (Finset.sum_congr rfl fun k _ => ?_) (congrArg x14 ?_)) rfl
  · have hl : lidx_main_v45 (ix2 e j) k = ix2 e k := funext (fun a => by match a with | ⟨0, _⟩ => rfl | ⟨1, _⟩ => rfl)
    have hr : ridx_main_v45 (ix2 e j) k = ix2 k j := funext (fun a => by match a with | ⟨0, _⟩ => rfl | ⟨1, _⟩ => rfl)
    rw [hl, hr, hid0_apply]
  · exact funext (fun a => by match a with | ⟨0, _⟩ => rfl)

/-- The logits of edge `e`. -/
theorem logit_apply (e : Fin 800000) (j : Fin 8) :
    val_main_v53 (F := Ideal) x0 x1 x3 x4 x5 x6 x7 x8 x11 x12 x13 x14 x15 x16 (ix2 e j) = (logit (hid1 (hid0 (fun l => val_main_v14 (F := Ideal) x0 x4 x5 x6 (ix2 e l)) (fun l => val_main_v25 (F := Ideal) x1 x4 x7 x8 (ix2 e l)) (bias (fun j => x3 (ix2 e j)) (fun j => x11 (ix2 j (0 : Fin 1))) (x12 (ix1 (0 : Fin 1))))) (fun l j => x13 (ix2 l j)) (fun j => x14 (ix1 j))) (fun l j => x15 (ix2 l j)) (fun j => x16 (ix1 j))) j := by
  rw [val_main_v53_apply, val_main_v50_apply, val_main_v52_apply, val_main_v51_apply]
  unfold logit
  refine congrArg₂ (· + ·) (Finset.sum_congr rfl fun k _ => ?_) (congrArg x16 ?_)
  · have hl : lidx_main_v50 (ix2 e j) k = ix2 e k := funext (fun a => by match a with | ⟨0, _⟩ => rfl | ⟨1, _⟩ => rfl)
    have hr : ridx_main_v50 (ix2 e j) k = ix2 k j := funext (fun a => by match a with | ⟨0, _⟩ => rfl | ⟨1, _⟩ => rfl)
    rw [hl, hr, hid1_apply]
  · exact funext (fun a => by match a with | ⟨0, _⟩ => rfl)

/-- The largest logit of edge `e`, as the reference takes it. -/
theorem top_apply (e : Fin 800000) :
    val_main_v56 (F := Ideal) x0 x1 x3 x4 x5 x6 x7 x8 x11 x12 x13 x14 x15 x16 (ix1 e) = top (fun l => val_main_v53 (F := Ideal) x0 x1 x3 x4 x5 x6 x7 x8 x11 x12 x13 x14 x15 x16 (ix2 e l)) := by
  rw [val_main_v56_apply, val_main_v55_apply, val_main_cst_5_apply]
  unfold val_main_v54 val_main_cst top
  rw [hostRowMax8]
  rfl

/-- The exponential of a logit's distance below the largest one. -/
theorem ex_apply (e : Fin 800000) (j : Fin 8) :
    val_main_v60 (F := Ideal) x0 x1 x3 x4 x5 x6 x7 x8 x11 x12 x13 x14 x15 x16 (ix2 e j) = ex (fun l => val_main_v53 (F := Ideal) x0 x1 x3 x4 x5 x6 x7 x8 x11 x12 x13 x14 x15 x16 (ix2 e l)) j := by
  rw [val_main_v60_apply, val_main_v59_apply, val_main_v58_apply, val_main_v57_apply]
  have hi : idx_main_v57 (idx_main_v58 (ix2 e j)) = ix1 e := funext (fun a => by match a with | ⟨0, _⟩ => rfl)
  rw [hi, top_apply]
  rfl

/-- The softmax weight `j` of edge `e`. -/
theorem wgt_apply (e : Fin 800000) (j : Fin 8) :
    val_main_v64 (F := Ideal) x0 x1 x3 x4 x5 x6 x7 x8 x11 x12 x13 x14 x15 x16 (ix2 e j) = wgt (fun l => val_main_v53 (F := Ideal) x0 x1 x3 x4 x5 x6 x7 x8 x11 x12 x13 x14 x15 x16 (ix2 e l)) j := by
  rw [val_main_v64_apply, val_main_v63_apply, val_main_v62_apply, val_main_v61_apply, val_main_cst_6_apply, ex_apply]
  have hi : idx_main_v62 (idx_main_v63 (ix2 e j)) = ix1 e := funext (fun a => by match a with | ⟨0, _⟩ => rfl)
  have hk : ∀ k : Fin 8, idx_main_v61 (ix1 e) k = ix2 e k := fun k => funext (fun a => by match a with | ⟨0, _⟩ => rfl | ⟨1, _⟩ => rfl)
  rw [hi]
  simp only [hk, ex_apply]
  unfold wgt
  show Ideal.div _ (Ideal.ofBits .f32 0x00000000#32 + _) = _
  rw [Ideal.ofBits_zero_f32, zero_add]

/-- The updates of the closing scatter at row `e`, column `c`. -/
theorem msg_apply (e : Fin 800000) (c : Fin 64) :
    val_main_v71 (F := Ideal) x0 x1 x2 x3 x4 x5 x6 x7 x8 x9 x10 x11 x12 x13 x14 x15 x16 (ix2 e c)
      = rowMsg (fun l => val_main_v14 (F := Ideal) x0 x4 x5 x6 (ix2 e l)) (fun l => val_main_v25 (F := Ideal) x1 x4 x7 x8 (ix2 e l)) (fun l => val_main_v36 (F := Ideal) x2 x4 x9 x10 (ix2 e l)) (fun j => x3 (ix2 e j)) (fun j => x11 (ix2 j (0 : Fin 1))) (x12 (ix1 (0 : Fin 1)))
          (fun l j => x13 (ix2 l j)) (fun j => x14 (ix1 j)) (fun l j => x15 (ix2 l j)) (fun j => x16 (ix1 j)) c := by
  have hc : c.val < 64 := c.isLt
  have he : e.val < 800000 := e.isLt
  rw [val_main_v71_apply, val_main_v70_apply, val_main_v67_apply, val_main_v66_apply, val_main_v65_apply,
    val_main_v69_apply, val_main_v68_apply]
  -- the 64 columns as 8 groups of 8, and back
  have h67 : idx_main_v67 (idx_main_v71 (ix2 e c)) = ix2 e c := funext (fun a => Fin.ext (by
    match a with
    | ⟨0, _⟩ =>
      show (((e.val * 64 + c.val) / 64 * 8 + (e.val * 64 + c.val) / 8 % 8) * 8 + (e.val * 64 + c.val) % 8) / 64 = e.val
      omega
    | ⟨1, _⟩ =>
      show (((e.val * 64 + c.val) / 64 * 8 + (e.val * 64 + c.val) / 8 % 8) * 8 + (e.val * 64 + c.val) % 8) % 64 = c.val
      omega))
  have h68 : idx_main_v68 (idx_main_v69 (idx_main_v71 (ix2 e c))) = ix2 e (lane c) := funext (fun a => Fin.ext (by
    match a with
    | ⟨0, _⟩ => show (e.val * 64 + c.val) / 64 = e.val; omega
    | ⟨1, _⟩ => show (e.val * 64 + c.val) % 8 = c.val % 8; omega))
  have h65 : idx_main_v65 (ix2 e c) = ix2 e (0 : Fin 1) := funext (fun a => by match a with | ⟨0, _⟩ => rfl | ⟨1, _⟩ => rfl)
  rw [h67, h68, h65, bias_apply, wgt_apply]
  unfold rowMsg
  refine congrArg (fun z => (val_main_v36 (F := Ideal) x2 x4 x9 x10 (ix2 e c) + (bias (fun j => x3 (ix2 e j)) (fun j => x11 (ix2 j (0 : Fin 1))) (x12 (ix1 (0 : Fin 1))))) * wgt z (lane c)) ?_
  exact funext fun l => logit_apply x0 x1 x3 x4 x5 x6 x7 x8 x11 x12 x13 x14 x15 x16 e l

/-- The scatter's updates are the message array of the gathered rows. -/
theorem msg_eq : val_main_v71 (F := Ideal) x0 x1 x2 x3 x4 x5 x6 x7 x8 x9 x10 x11 x12 x13 x14 x15 x16
    = msg (val_main_v14 (F := Ideal) x0 x4 x5 x6) (val_main_v25 (F := Ideal) x1 x4 x7 x8) (val_main_v36 (F := Ideal) x2 x4 x9 x10)
        x3 x11 x12 x13 x14 x15 x16 := by
  funext i
  obtain ⟨e, c, rfl⟩ : ∃ (e : Fin 800000) (c : Fin 64), i = ix2 e c := ⟨i 0, i 1, eq_ix2 i⟩
  rw [msg_apply]
  rfl

end Stages

/-! ## The result -/

section Result

open Idealize.SL.Sem Idealize.ShloMosaic.TcCoe

/-- The first column of the edge index (the node an edge is aggregated at), as a vector of 800000 entries. -/
def col0 (x4 : (⟨S800000x2, .i32⟩ : BufTy).Contents (Elt Ideal)) : (⟨S800000, .i32⟩ : BufTy).Contents (Elt Ideal) :=
  shapeCast S800000 (extractStridedSlice S800000x1 ![0, 0] x4 slices_S800000x2_S800000x1_0_0) shapeCasts_S800000x1_S800000

/-- The second column of the edge index (the neighbour an edge reads key and value from). -/
def col1 (x4 : (⟨S800000x2, .i32⟩ : BufTy).Contents (Elt Ideal)) : (⟨S800000, .i32⟩ : BufTy).Contents (Elt Ideal) :=
  shapeCast S800000 (extractStridedSlice S800000x1 ![0, 1] x4 slices_S800000x2_S800000x1_0_1) shapeCasts_S800000x1_S800000

/-- An index vector with its negative entries wrapped around by 50000, as the one-column array a row gather takes. -/
def wrapped (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Rows of a node array gathered at an index column. -/
abbrev rowsAt (x : S50000x64.Idx → EReal) (ix : (⟨S800000x1, .i32⟩ : BufTy).Contents (Elt Ideal)) : S800000x64.Idx → EReal :=
  Host.gather gather_S50000x64_S800000x1_S800000x64_1_0_n_n_0_1_164 x ix

variable (m : (ℓ : Loc nD τ sig) → Buf (Elt Ideal) ℓ)

/-- The message array of the arguments: the gathered rows of the three projections, the edge features and the weights. -/
def messages (c : Dev nD) : S800000x64.Idx → EReal :=
  msg (rowsAt (proj (m ((c.tc : Thread nD τ).loc main_arg0)) (m ((c.tc : Thread nD τ).loc main_arg5)) (m ((c.tc : Thread nD τ).loc main_arg6))) (wrapped (col0 (m ((c.tc : Thread nD τ).loc main_arg4)))))
      (rowsAt (proj (m ((c.tc : Thread nD τ).loc main_arg1)) (m ((c.tc : Thread nD τ).loc main_arg7)) (m ((c.tc : Thread nD τ).loc main_arg8))) (wrapped (col1 (m ((c.tc : Thread nD τ).loc main_arg4)))))
      (rowsAt (proj (m ((c.tc : Thread nD τ).loc main_arg2)) (m ((c.tc : Thread nD τ).loc main_arg9)) (m ((c.tc : Thread nD τ).loc main_arg10))) (wrapped (col1 (m ((c.tc : Thread nD τ).loc main_arg4)))))
      (m ((c.tc : Thread nD τ).loc main_arg3)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-- THE RESULT: the zero array with the message array added in, row `e` at the node the first index column names. -/
def result (c : Dev nD) : S50000x64.Idx → EReal :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 (col0 (m ((c.tc : Thread nD τ).loc main_arg4))))
    (messages m c)

/-- The reference's run ends at `result`. -/
theorem res_eq (c : Dev nD) : Cert.ReferenceIdeal.Value.res_main_v74 m c = result m c := by
  rw [val_main_v74_eq]
  unfold val_main_v74
  rw [msg_eq]
  unfold val_main_v14 val_main_v25 val_main_v36
  rw [proj_q, proj_k, proj_v]
  rfl

end Result

end Cert.RefValue

end
-- ==== Proof.Bridge.lean ====
/-
  The two results are one array. Both programs end at the zero array with the message array scattered in by the first
  index column; the message array is the same function of the same gathered rows, edge features and weights, and the
  gathered rows are the same gathers of the same projections. So once the two memories agree on the seventeen
  arguments, the two result terms are the same term.
-/
import proofs.«132439_j53944789238361_2_alg».proof.Proof.KernelValue
import proofs.«132439_j53944789238361_2_alg».proof.Proof.RefValue

noncomputable section

namespace Cert.Bridge

open Idealize.ShloMosaic Idealize.SL.Sem Idealize.ShloMosaic.TcCoe

/-- From memories that agree on the arguments, the reference's result is the kernel's. -/
theorem result_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))) :
    Cert.RefValue.result m' c = Cert.KernelValue.result m c := by
  unfold Cert.RefValue.result Cert.RefValue.messages Cert.KernelValue.result Cert.KernelValue.messages
  rw [h0, h1, h2, h3, h4, h5, h6, h7, h8, h9, h10, h11, h12, h13, h14, h15, h16]
  rfl

end Cert.Bridge

end
-- ==== Proof.lean ====
/- The proof of `Cert.Claim`: a two-stage message-passing layer on a graph of 50000 nodes and 800000 edges against its
   plain array-program reference, equal over the extended reals.

   Both programs compute, for every edge `e` with endpoints `(s, d)` read off the two index columns: the rows `s` of
   `q·Wq + bq` and `d` of `k·Wk + bk`, `v·Wv + bv`; a positional bias from the edge's 16 features; a two-layer
   perceptron of (key − query + bias) down to 8 logits; their softmax; and the message (value + bias) times the
   softmax weights repeated along the 64 columns. The messages are then summed into the rows their first index names.

   The kernel program does the three projections in one gridded region (25 blocks of 2000 rows), gathers rows on the
   host, computes the messages in a second gridded region (100 blocks of 8000 edges), and add-scatters on the host; the
   reference does everything with whole-array operations. The proof reads each program's result as the SAME term: the
   zero array with `EdgeSpec.msg` of the gathered rows of `EdgeSpec.proj` scattered in. What differs between the two —
   the tiling into blocks, a product into a zero accumulator against a dot product, a lane sum against a dot product
   with a one-column matrix, an 8-fold concatenation against a view as 8 groups of 8 — is matched entry by entry in
   Proof/ProjValue.lean, Proof/EdgeBody.lean, Proof/EdgeValue.lean (the kernel's two regions), Proof/KernelValue.lean
   (the kernel's host operations around them) and Proof/RefValue.lean (the reference). The gathers and the scatter are
   never opened: both sides apply the same operation to the same arrays (Proof/Bridge.lean). No step uses an algebraic
   law beyond reindexing a finite sum, so the precondition (finite inputs) is not used. -/
import proofs.«132439_j53944789238361_2_alg».proof.Defs
import proofs.«132439_j53944789238361_2_alg».proof.Proof.Gen.Kernel
import proofs.«132439_j53944789238361_2_alg».proof.Proof.Gen.Kernel.Frame
import proofs.«132439_j53944789238361_2_alg».proof.Proof.Gen.KernelIdeal
import proofs.«132439_j53944789238361_2_alg».proof.Proof.Gen.KernelIdeal.Frame
import proofs.«132439_j53944789238361_2_alg».proof.Proof.Gen.ReferenceIdeal
import proofs.«132439_j53944789238361_2_alg».proof.Proof.Gen.ReferenceIdeal.Run
import proofs.«132439_j53944789238361_2_alg».proof.Proof.Gen.ReferenceIdeal.Read
import proofs.«132439_j53944789238361_2_alg».proof.Proof.Gen.Pre_finite_inputs
import proofs.«132439_j53944789238361_2_alg».proof.Proof.KernelRunPatched
import proofs.«132439_j53944789238361_2_alg».proof.Proof.KernelValue
import proofs.«132439_j53944789238361_2_alg».proof.Proof.RefValue
import proofs.«132439_j53944789238361_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at `KernelValue.result`: the zero array with the
    message array of the gathered projection rows added in at the rows the first index column names. -/
theorem algebraic : Cert.algebraic_KernelIdeal_ReferenceIdeal := by
  intro m ρ m' ρ' _ hagree
  refine ⟨fun c => Cert.KernelValue.result m c, ?_, ?_⟩
  · exact (θ_run Cert.KernelIdeal.defs _ _).mono
      (fun r h c => ⟨(h c).1.trans (Cert.KernelValue.W5_v36 m ρ c), (h c).2⟩) (Cert.KernelIdeal.GenP.run_result m ρ)
  · refine (θ_run Cert.ReferenceIdeal.defs _ _).mono (fun _ h c => ⟨(h c).1.trans ?_, (h c).2⟩)
      (Cert.ReferenceIdeal.Value.run (F := Ideal) m' ρ')
    rw [Cert.RefValue.res_eq]
    obtain ⟨a0, a1, a2, a3, a4, a5, a6, a7, a8, a9, a10, a11, a12, a13, a14, a15, a16⟩ := hagree c
    exact Cert.Bridge.result_agree m m' c a0 a1 a2 a3 a4 a5 a6 a7 a8 a9 a10 a11 a12 a13 a14 a15 a16

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
